-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x26 : Shape := ⟨2, ![16384, 26]⟩
abbrev S16384x13 : Shape := ⟨2, ![16384, 13]⟩
abbrev S26x100000x1 : Shape := ⟨3, ![26, 100000, 1]⟩
abbrev S26x100000x16 : Shape := ⟨3, ![26, 100000, 16]⟩
abbrev S13x1 : Shape := ⟨2, ![13, 1]⟩
abbrev S1 : Shape := ⟨1, ![1]⟩
abbrev S429x400 : Shape := ⟨2, ![429, 400]⟩
abbrev S400 : Shape := ⟨1, ![400]⟩
abbrev S400x400 : Shape := ⟨2, ![400, 400]⟩
abbrev S400x1 : Shape := ⟨2, ![400, 1]⟩
abbrev S_ : Shape := ⟨0, ![]⟩

class Facts : Prop where
  bcast_S_S16384x13 : S_.BroadcastsInDim S16384x13 (![] : Fin 0 → Fin S16384x13.rank)
  reducesTo_S16384x13_S_d0_1 : S16384x13.ReducesTo [0, 1] S_
  h_S_ : 0 < S_.numel
  bcast_S_S26x100000x1 : S_.BroadcastsInDim S26x100000x1 (![] : Fin 0 → Fin S26x100000x1.rank)
  reducesTo_S26x100000x1_S_d0_1_2 : S26x100000x1.ReducesTo [0, 1, 2] S_
  bcast_S_S26x100000x16 : S_.BroadcastsInDim S26x100000x16 (![] : Fin 0 → Fin S26x100000x16.rank)
  reducesTo_S26x100000x16_S_d0_1_2 : S26x100000x16.ReducesTo [0, 1, 2] S_
  bcast_S_S13x1 : S_.BroadcastsInDim S13x1 (![] : Fin 0 → Fin S13x1.rank)
  reducesTo_S13x1_S_d0_1 : S13x1.ReducesTo [0, 1] S_
  bcast_S_S1 : S_.BroadcastsInDim S1 (![] : Fin 0 → Fin S1.rank)
  reducesTo_S1_S_d0 : S1.ReducesTo [0] S_
  bcast_S_S429x400 : S_.BroadcastsInDim S429x400 (![] : Fin 0 → Fin S429x400.rank)
  reducesTo_S429x400_S_d0_1 : S429x400.ReducesTo [0, 1] S_
  bcast_S_S400 : S_.BroadcastsInDim S400 (![] : Fin 0 → Fin S400.rank)
  reducesTo_S400_S_d0 : S400.ReducesTo [0] S_
  bcast_S_S400x400 : S_.BroadcastsInDim S400x400 (![] : Fin 0 → Fin S400x400.rank)
  reducesTo_S400x400_S_d0_1 : S400x400.ReducesTo [0, 1] S_
  bcast_S_S400x1 : S_.BroadcastsInDim S400x1 (![] : Fin 0 → Fin S400x1.rank)
  reducesTo_S400x1_S_d0_1 : S400x1.ReducesTo [0, 1] S_

variable [Facts]

def fn_part3 {F : FTy → Type} [FloatOps F] (main_arg12 : FVec F S400x1 .f32) (main_v48 : IVec S_ 1) (main_v49 : FVec F S400 .f32) (main_v50 : FVec F S400 .f32) : IVec S_ 1 :=
  let main_v51 : IVec S400 1 := cmpf .olt main_v49 main_v50
  let main_c_19 : IVec S_ 1 := constantI S_ 1 1#1
  let main_v52 : IVec S_ 1 := (fun x v => Host.reduce IntOp.andi x v reducesTo_S400_S_d0 h_S_) main_v51 main_c_19
  let main_v53 : IVec S_ 1 := andi main_v48 main_v52
  let main_v54 : FVec F S400x1 .f32 := Host.absf main_arg12
  let main_cst_20 : FVec F S_ .f32 := constant S_ .f32 0x7F800000#32
  let main_v55 : FVec F S400x1 .f32 := broadcastInDim S400x1 ![] bcast_S_S400x1 main_cst_20
  let main_v56 : IVec S400x1 1 := cmpf .olt main_v54 main_v55
  let main_c_21 : IVec S_ 1 := constantI S_ 1 1#1
  let main_v57 : IVec S_ 1 := (fun x v => Host.reduce IntOp.andi x v reducesTo_S400x1_S_d0_1 h_S_) main_v56 main_c_21
  let main_v58 : IVec S_ 1 := andi main_v53 main_v57
  main_v58

def fn_part2 {F : FTy → Type} [FloatOps F] (main_arg8 : FVec F S400x400 .f32) (main_arg9 : FVec F S400 .f32) (main_arg10 : FVec F S400x400 .f32) (main_arg11 : FVec F S400 .f32) (main_arg12 : FVec F S400x1 .f32) (main_v33 : IVec S_ 1) : IVec S_ 1 :=
  let main_v34 : FVec F S400x400 .f32 := Host.absf main_arg8
  let main_cst_12 : FVec F S_ .f32 := constant S_ .f32 0x7F800000#32
  let main_v35 : FVec F S400x400 .f32 := broadcastInDim S400x400 ![] bcast_S_S400x400 main_cst_12
  let main_v36 : IVec S400x400 1 := cmpf .olt main_v34 main_v35
  let main_c_13 : IVec S_ 1 := constantI S_ 1 1#1
  let main_v37 : IVec S_ 1 := (fun x v => Host.reduce IntOp.andi x v reducesTo_S400x400_S_d0_1 h_S_) main_v36 main_c_13
  let main_v38 : IVec S_ 1 := andi main_v33 main_v37
  let main_v39 : FVec F S400 .f32 := Host.absf main_arg9
  let main_cst_14 : FVec F S_ .f32 := constant S_ .f32 0x7F800000#32
  let main_v40 : FVec F S400 .f32 := broadcastInDim S400 ![] bcast_S_S400 main_cst_14
  let main_v41 : IVec S400 1 := cmpf .olt main_v39 main_v40
  let main_c_15 : IVec S_ 1 := constantI S_ 1 1#1
  let main_v42 : IVec S_ 1 := (fun x v => Host.reduce IntOp.andi x v reducesTo_S400_S_d0 h_S_) main_v41 main_c_15
  let main_v43 : IVec S_ 1 := andi main_v38 main_v42
  let main_v44 : FVec F S400x400 .f32 := Host.absf main_arg10
  let main_cst_16 : FVec F S_ .f32 := constant S_ .f32 0x7F800000#32
  let main_v45 : FVec F S400x400 .f32 := broadcastInDim S400x400 ![] bcast_S_S400x400 main_cst_16
  let main_v46 : IVec S400x400 1 := cmpf .olt main_v44 main_v45
  let main_c_17 : IVec S_ 1 := constantI S_ 1 1#1
  let main_v47 : IVec S_ 1 := (fun x v => Host.reduce IntOp.andi x v reducesTo_S400x400_S_d0_1 h_S_) main_v46 main_c_17
  let main_v48 : IVec S_ 1 := andi main_v43 main_v47
  let main_v49 : FVec F S400 .f32 := Host.absf main_arg11
  let main_cst_18 : FVec F S_ .f32 := constant S_ .f32 0x7F800000#32
  let main_v50 : FVec F S400 .f32 := broadcastInDim S400 ![] bcast_S_S400 main_cst_18
  fn_part3 (F := F) main_arg12 main_v48 main_v49 main_v50

def fn_part1 {F : FTy → Type} [FloatOps F] (main_arg5 : FVec F S1 .f32) (main_arg6 : FVec F S429x400 .f32) (main_arg7 : FVec F S400 .f32) (main_arg8 : FVec F S400x400 .f32) (main_arg9 : FVec F S400 .f32) (main_arg10 : FVec F S400x400 .f32) (main_arg11 : FVec F S400 .f32) (main_arg12 : FVec F S400x1 .f32) (main_v13 : IVec S_ 1) (main_v16 : IVec S13x1 1) : IVec S_ 1 :=
  let main_c_5 : IVec S_ 1 := constantI S_ 1 1#1
  let main_v17 : IVec S_ 1 := (fun x v => Host.reduce IntOp.andi x v reducesTo_S13x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S429x400 .f32 := Host.absf main_arg6
  let main_cst_8 : FVec F S_ .f32 := constant S_ .f32 0x7F800000#32
  let main_v25 : FVec F S429x400 .f32 := broadcastInDim S429x400 ![] bcast_S_S429x400 main_cst_8
  let main_v26 : IVec S429x400 1 := cmpf .olt main_v24 main_v25
  let main_c_9 : IVec S_ 1 := constantI S_ 1 1#1
  let main_v27 : IVec S_ 1 := (fun x v => Host.reduce IntOp.andi x v reducesTo_S429x400_S_d0_1 h_S_) main_v26 main_c_9
  let main_v28 : IVec S_ 1 := andi main_v23 main_v27
  let main_v29 : FVec F S400 .f32 := Host.absf main_arg7
  let main_cst_10 : FVec F S_ .f32 := constant S_ .f32 0x7F800000#32
  let main_v30 : FVec F S400 .f32 := broadcastInDim S400 ![] bcast_S_S400 main_cst_10
  let main_v31 : IVec S400 1 := cmpf .olt main_v29 main_v30
  let main_c_11 : IVec S_ 1 := constantI S_ 1 1#1
  let main_v32 : IVec S_ 1 := (fun x v => Host.reduce IntOp.andi x v reducesTo_S400_S_d0 h_S_) main_v31 main_c_11
  let main_v33 : IVec S_ 1 := andi main_v28 main_v32
  fn_part2 (F := F) main_arg8 main_arg9 main_arg10 main_arg11 main_arg12 main_v33

def fn {F : FTy → Type} [FloatOps F] (main_arg0 : IVec S16384x26 32) (main_arg1 : FVec F S16384x13 .f32) (main_arg2 : FVec F S26x100000x1 .f32) (main_arg3 : FVec F S26x100000x16 .f32) (main_arg4 : FVec F S13x1 .f32) (main_arg5 : FVec F S1 .f32) (main_arg6 : FVec F S429x400 .f32) (main_arg7 : FVec F S400 .f32) (main_arg8 : FVec F S400x400 .f32) (main_arg9 : FVec F S400 .f32) (main_arg10 : FVec F S400x400 .f32) (main_arg11 : FVec F S400 .f32) (main_arg12 : FVec F S400x1 .f32) : IVec S_ 1 :=
  let main_v0 : FVec F S16384x13 .f32 := Host.absf main_arg1
  let main_cst : FVec F S_ .f32 := constant S_ .f32 0x7F800000#32
  let main_v1 : FVec F S16384x13 .f32 := broadcastInDim S16384x13 ![] bcast_S_S16384x13 main_cst
  let main_v2 : IVec S16384x13 1 := cmpf .olt main_v0 main_v1
  let main_c : IVec S_ 1 := constantI S_ 1 1#1
  let main_v3 : IVec S_ 1 := (fun x v => Host.reduce IntOp.andi x v reducesTo_S16384x13_S_d0_1 h_S_) main_v2 main_c
  let main_v4 : FVec F S26x100000x1 .f32 := Host.absf main_arg2
  let main_cst_0 : FVec F S_ .f32 := constant S_ .f32 0x7F800000#32
  let main_v5 : FVec F S26x100000x1 .f32 := broadcastInDim S26x100000x1 ![] bcast_S_S26x100000x1 main_cst_0
  let main_v6 : IVec S26x100000x1 1 := cmpf .olt main_v4 main_v5
  let main_c_1 : IVec S_ 1 := constantI S_ 1 1#1
  let main_v7 : IVec S_ 1 := (fun x v => Host.reduce IntOp.andi x v reducesTo_S26x100000x1_S_d0_1_2 h_S_) main_v6 main_c_1
  let main_v8 : IVec S_ 1 := andi main_v3 main_v7
  let main_v9 : FVec F S26x100000x16 .f32 := Host.absf main_arg3
  let main_cst_2 : FVec F S_ .f32 := constant S_ .f32 0x7F800000#32
  let main_v10 : FVec F S26x100000x16 .f32 := broadcastInDim S26x100000x16 ![] bcast_S_S26x100000x16 main_cst_2
  let main_v11 : IVec S26x100000x16 1 := cmpf .olt main_v9 main_v10
  let main_c_3 : IVec S_ 1 := constantI S_ 1 1#1
  let main_v12 : IVec S_ 1 := (fun x v => Host.reduce IntOp.andi x v reducesTo_S26x100000x16_S_d0_1_2 h_S_) main_v11 main_c_3
  let main_v13 : IVec S_ 1 := andi main_v8 main_v12
  let main_v14 : FVec F S13x1 .f32 := Host.absf main_arg4
  let main_cst_4 : FVec F S_ .f32 := constant S_ .f32 0x7F800000#32
  let main_v15 : FVec F S13x1 .f32 := broadcastInDim S13x1 ![] bcast_S_S13x1 main_cst_4
  let main_v16 : IVec S13x1 1 := cmpf .olt main_v14 main_v15
  fn_part1 (F := F) main_arg5 main_arg6 main_arg7 main_arg8 main_arg9 main_arg10 main_arg11 main_arg12 main_v13 main_v16
-- ==== Kernel.lean ====
abbrev S16384x26 : Shape := ⟨2, ![16384, 26]⟩
abbrev S16384x13 : Shape := ⟨2, ![16384, 13]⟩
abbrev S26x100000x1 : Shape := ⟨3, ![26, 100000, 1]⟩
abbrev S26x100000x16 : Shape := ⟨3, ![26, 100000, 16]⟩
abbrev S13x1 : Shape := ⟨2, ![13, 1]⟩
abbrev S1 : Shape := ⟨1, ![1]⟩
abbrev S429x400 : Shape := ⟨2, ![429, 400]⟩
abbrev S400 : Shape := ⟨1, ![400]⟩
abbrev S400x400 : Shape := ⟨2, ![400, 400]⟩
abbrev S400x1 : Shape := ⟨2, ![400, 1]⟩
abbrev S26 : Shape := ⟨1, ![26]⟩
abbrev S1x26 : Shape := ⟨2, ![1, 26]⟩
abbrev S_ : Shape := ⟨0, ![]⟩
abbrev S16384x26x1 : Shape := ⟨3, ![16384, 26, 1]⟩
abbrev S16384x26x2 : Shape := ⟨3, ![16384, 26, 2]⟩
abbrev S16384x26x16 : Shape := ⟨3, ![16384, 26, 16]⟩
abbrev S16384x416 : Shape := ⟨2, ![16384, 416]⟩
abbrev S16384x429 : Shape := ⟨2, ![16384, 429]⟩
abbrev S16384x1 : Shape := ⟨2, ![16384, 1]⟩
abbrev S1024x26 : Shape := ⟨2, ![1024, 26]⟩
abbrev S1024x26x16 : Shape := ⟨3, ![1024, 26, 16]⟩
abbrev S1024x429 : Shape := ⟨2, ![1024, 429]⟩
abbrev S1024x13 : Shape := ⟨2, ![1024, 13]⟩
abbrev S1024x1 : Shape := ⟨2, ![1024, 1]⟩
abbrev S1024 : Shape := ⟨1, ![1024]⟩
abbrev S1024x16 : Shape := ⟨2, ![1024, 16]⟩
abbrev S1024x400 : Shape := ⟨2, ![1024, 400]⟩
abbrev S1x400 : Shape := ⟨2, ![1, 400]⟩
abbrev S1x1 : Shape := ⟨2, ![1, 1]⟩

abbrev nBuf : Space → Nat
  | .hbm => 61
  | .vmem => 19
  | .smem => 0
  | _ => 0

abbrev bufTy : (tb : Table) → Fin (tcTables nBuf tb) → BufTy
  | .hbm, ⟨0, _⟩ => ⟨S16384x26, .i32⟩
  | .hbm, ⟨1, _⟩ => ⟨S16384x13, .f32⟩
  | .hbm, ⟨2, _⟩ => ⟨S26x100000x1, .f32⟩
  | .hbm, ⟨3, _⟩ => ⟨S26x100000x16, .f32⟩
  | .hbm, ⟨4, _⟩ => ⟨S13x1, .f32⟩
  | .hbm, ⟨5, _⟩ => ⟨S1, .f32⟩
  | .hbm, ⟨6, _⟩ => ⟨S429x400, .f32⟩
  | .hbm, ⟨7, _⟩ => ⟨S400, .f32⟩
  | .hbm, ⟨8, _⟩ => ⟨S400x400, .f32⟩
  | .hbm, ⟨9, _⟩ => ⟨S400, .f32⟩
  | .hbm, ⟨10, _⟩ => ⟨S400x400, .f32⟩
  | .hbm, ⟨11, _⟩ => ⟨S400, .f32⟩
  | .hbm, ⟨12, _⟩ => ⟨S400x1, .f32⟩
  | .hbm, ⟨13, _⟩ => ⟨S26, .i32⟩
  | .hbm, ⟨14, _⟩ => ⟨S1x26, .i32⟩
  | .hbm, ⟨15, _⟩ => ⟨S_, .i32⟩
  | .hbm, ⟨16, _⟩ => ⟨S1x26, .i32⟩
  | .hbm, ⟨17, _⟩ => ⟨S1x26, .i1⟩
  | .hbm, ⟨18, _⟩ => ⟨S_, .i32⟩
  | .hbm, ⟨19, _⟩ => ⟨S1x26, .i32⟩
  | .hbm, ⟨20, _⟩ => ⟨S1x26, .i32⟩
  | .hbm, ⟨21, _⟩ => ⟨S1x26, .i32⟩
  | .hbm, ⟨22, _⟩ => ⟨S_, .i32⟩
  | .hbm, ⟨23, _⟩ => ⟨S16384x26, .i32⟩
  | .hbm, ⟨24, _⟩ => ⟨S16384x26, .i1⟩
  | .hbm, ⟨25, _⟩ => ⟨S_, .i32⟩
  | .hbm, ⟨26, _⟩ => ⟨S16384x26, .i32⟩
  | .hbm, ⟨27, _⟩ => ⟨S16384x26, .i32⟩
  | .hbm, ⟨28, _⟩ => ⟨S16384x26, .i32⟩
  | .hbm, ⟨29, _⟩ => ⟨S16384x26, .i32⟩
  | .hbm, ⟨30, _⟩ => ⟨S16384x26x1, .i32⟩
  | .hbm, ⟨31, _⟩ => ⟨S16384x26x1, .i32⟩
  | .hbm, ⟨32, _⟩ => ⟨S16384x26x2, .i32⟩
  | .hbm, ⟨33, _⟩ => ⟨S16384x26x1, .f32⟩
  | .hbm, ⟨34, _⟩ => ⟨S16384x26, .f32⟩
  | .hbm, ⟨35, _⟩ => ⟨S_, .i32⟩
  | .hbm, ⟨36, _⟩ => ⟨S1x26, .i32⟩
  | .hbm, ⟨37, _⟩ => ⟨S1x26, .i1⟩
  | .hbm, ⟨38, _⟩ => ⟨S_, .i32⟩
  | .hbm, ⟨39, _⟩ => ⟨S1x26, .i32⟩
  | .hbm, ⟨40, _⟩ => ⟨S1x26, .i32⟩
  | .hbm, ⟨41, _⟩ => ⟨S1x26, .i32⟩
  | .hbm, ⟨42, _⟩ => ⟨S_, .i32⟩
  | .hbm, ⟨43, _⟩ => ⟨S16384x26, .i32⟩
  | .hbm, ⟨44, _⟩ => ⟨S16384x26, .i1⟩
  | .hbm, ⟨45, _⟩ => ⟨S_, .i32⟩
  | .hbm, ⟨46, _⟩ => ⟨S16384x26, .i32⟩
  | .hbm, ⟨47, _⟩ => ⟨S16384x26, .i32⟩
  | .hbm, ⟨48, _⟩ => ⟨S16384x26, .i32⟩
  | .hbm, ⟨49, _⟩ => ⟨S16384x26, .i32⟩
  | .hbm, ⟨50, _⟩ => ⟨S16384x26x1, .i32⟩
  | .hbm, ⟨51, _⟩ => ⟨S16384x26x1, .i32⟩
  | .hbm, ⟨52, _⟩ => ⟨S16384x26x2, .i32⟩
  | .hbm, ⟨53, _⟩ => ⟨S16384x26x16, .f32⟩
  | .hbm, ⟨54, _⟩ => ⟨S16384x416, .f32⟩
  | .hbm, ⟨55, _⟩ => ⟨S16384x429, .f32⟩
  | .hbm, ⟨56, _⟩ => ⟨S429x400, .bf16⟩
  | .hbm, ⟨57, _⟩ => ⟨S400x400, .bf16⟩
  | .hbm, ⟨58, _⟩ => ⟨S400x400, .bf16⟩
  | .hbm, ⟨59, _⟩ => ⟨S400x1, .bf16⟩
  | .hbm, ⟨60, _⟩ => ⟨S16384x1, .f32⟩
  | .local _ .vmem, ⟨0, _⟩ => ⟨S1024x26, .f32⟩
  | .local _ .vmem, ⟨1, _⟩ => ⟨S1024x26, .f32⟩
  | .local _ .vmem, ⟨2, _⟩ => ⟨S1024x26x16, .f32⟩
  | .local _ .vmem, ⟨3, _⟩ => ⟨S1024x26x16, .f32⟩
  | .local _ .vmem, ⟨4, _⟩ => ⟨S1024x429, .f32⟩
  | .local _ .vmem, ⟨5, _⟩ => ⟨S1024x429, .f32⟩
  | .local _ .vmem, ⟨6, _⟩ => ⟨S1024x13, .f32⟩
  | .local _ .vmem, ⟨7, _⟩ => ⟨S1024x13, .f32⟩
  | .local _ .vmem, ⟨8, _⟩ => ⟨S13x1, .f32⟩
  | .local _ .vmem, ⟨9, _⟩ => ⟨S1, .f32⟩
  | .local _ .vmem, ⟨10, _⟩ => ⟨S429x400, .bf16⟩
  | .local _ .vmem, ⟨11, _⟩ => ⟨S400, .f32⟩
  | .local _ .vmem, ⟨12, _⟩ => ⟨S400x400, .bf16⟩
  | .local _ .vmem, ⟨13, _⟩ => ⟨S400, .f32⟩
  | .local _ .vmem, ⟨14, _⟩ => ⟨S400x400, .bf16⟩
  | .local _ .vmem, ⟨15, _⟩ => ⟨S400, .f32⟩
  | .local _ .vmem, ⟨16, _⟩ => ⟨S400x1, .bf16⟩
  | .local _ .vmem, ⟨17, _⟩ => ⟨S1024x1, .f32⟩
  | .local _ .vmem, ⟨18, _⟩ => ⟨S1024x1, .f32⟩
  | _, _ => ⟨S16384x26, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x26 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x26x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x429 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x13 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S13x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S429x400 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S400 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S400x400 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S400 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S400x400 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S400 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S400x1 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  bcast_S26_S1x26_1 : S26.BroadcastsInDim S1x26 (![1] : Fin 1 → Fin S1x26.rank)
  bcast_S_S1x26 : S_.BroadcastsInDim S1x26 (![] : Fin 0 → Fin S1x26.rank)
  bcast_S_S16384x26 : S_.BroadcastsInDim S16384x26 (![] : Fin 0 → Fin S16384x26.rank)
  bcast_S1x26_S16384x26_0_1 : S1x26.BroadcastsInDim S16384x26 (![0, 1] : Fin 2 → Fin S16384x26.rank)
  bcast_S16384x26_S16384x26x1_0_1 : S16384x26.BroadcastsInDim S16384x26x1 (![0, 1] : Fin 2 → Fin S16384x26x1.rank)
  concatenates_S16384x26x1_S16384x26x1_S16384x26x2_d2 : Shape.Concatenates [S16384x26x1, S16384x26x1] S16384x26x2 2
  shapeCasts_S16384x26x1_S16384x26 : S16384x26x1.ShapeCasts S16384x26
  shapeCasts_S16384x26x16_S16384x416 : S16384x26x16.ShapeCasts S16384x416
  concatenates_S16384x416_S16384x13_S16384x429_d1 : Shape.Concatenates [S16384x416, S16384x13] S16384x429 1
  bitsLt_bf16_f32 : FTy.bits .bf16 < FTy.bits .f32
  inb_S1024x26_S1024x26_0_0 : ∀ a, (![0, 0] : Fin 2 → Nat) a + S1024x26.size a ≤ S1024x26.size a
  h_S1024x26 : 0 < S1024x26.numel
  shapeCasts_S1024x26_S1024x26 : S1024x26.ShapeCasts S1024x26
  inb_S1024x26x16_S1024x26x16_0_0_0 : ∀ a, (![0, 0, 0] : Fin 3 → Nat) a + S1024x26x16.size a ≤ S1024x26x16.size a
  h_S1024x26x16 : 0 < S1024x26x16.numel
  shapeCasts_S1024x26x16_S1024x26x16 : S1024x26x16.ShapeCasts S1024x26x16
  inb_S1024x13_S1024x13_0_0 : ∀ a, (![0, 0] : Fin 2 → Nat) a + S1024x13.size a ≤ S1024x13.size a
  h_S1024x13 : 0 < S1024x13.numel
  inb_S1024x429_S1024x429_0_0 : ∀ a, (![0, 0] : Fin 2 → Nat) a + S1024x429.size a ≤ S1024x429.size a
  h_S1024x429 : 0 < S1024x429.numel
  shapeCasts_S1024x429_S1024x429 : S1024x429.ShapeCasts S1024x429
  reduces_S1024x26_S1024 : S1024x26.Reduces [1] S1024
  shapeCasts_S1024_S1024x1 : S1024.ShapeCasts S1024x1
  inb_S13x1_S13x1_0_0 : ∀ a, (![0, 0] : Fin 2 → Nat) a + S13x1.size a ≤ S13x1.size a
  h_S13x1 : 0 < S13x1.numel
  reduces_S1024x26x16_S1024x16 : S1024x26x16.Reduces [1] S1024x16
  reduces_S1024x16_S1024 : S1024x16.Reduces [1] S1024
  inb_S429x400_S429x400_0_0 : ∀ a, (![0, 0] : Fin 2 → Nat) a + S429x400.size a ≤ S429x400.size a
  h_S429x400 : 0 < S429x400.numel
  shapeCasts_S429x400_S429x400 : S429x400.ShapeCasts S429x400
  inb_S400_S400_0 : ∀ a, (![0] : Fin 1 → Nat) a + S400.size a ≤ S400.size a
  h_S400 : 0 < S400.numel
  shapeCasts_S400_S1x400 : S400.ShapeCasts S1x400
  broadcasts_S1x400_S1024x400 : S1x400.Broadcasts S1024x400
  inb_S400x400_S400x400_0_0 : ∀ a, (![0, 0] : Fin 2 → Nat) a + S400x400.size a ≤ S400x400.size a
  h_S400x400 : 0 < S400x400.numel
  shapeCasts_S400x400_S400x400 : S400x400.ShapeCasts S400x400
  inb_S400x1_S400x1_0_0 : ∀ a, (![0, 0] : Fin 2 → Nat) a + S400x1.size a ≤ S400x1.size a
  h_S400x1 : 0 < S400x1.numel
  shapeCasts_S400x1_S400x1 : S400x1.ShapeCasts S400x1
  inb_S1_S1_0 : ∀ a, (![0] : Fin 1 → Nat) a + S1.size a ≤ S1.size a
  h_S1 : 0 < S1.numel
  shapeCasts_S1_S1x1 : S1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  gather_S26x100000x1_S16384x26x2_S16384x26x1_2_01_n_n_01_2_111_wf : GatherDims.WF S26x100000x1 S16384x26x2 S16384x26x1 [2] [0, 1] [] [0, 1] [] 2 ![1, 1, 1]
  gather_S26x100000x16_S16384x26x2_S16384x26x16_2_01_n_n_01_2_1116_wf : GatherDims.WF S26x100000x16 S16384x26x2 S16384x26x16 [2] [0, 1] [] [0, 1] [] 2 ![1, 1, 16]
  dot_S1024x13_S13x1_S1024x1_1_0_0_1_n_n_wf : DotDims.WF S1024x13 S13x1 S1024x1 [1] [0] [0] [1] [] []
  dot_S1024x429_S429x400_S1024x400_1_0_0_1_n_n_wf : DotDims.WF S1024x429 S429x400 S1024x400 [1] [0] [0] [1] [] []
  dot_S1024x400_S400x400_S1024x400_1_0_0_1_n_n_wf : DotDims.WF S1024x400 S400x400 S1024x400 [1] [0] [0] [1] [] []
  dot_S1024x400_S400x1_S1024x1_1_0_0_1_n_n_wf : DotDims.WF S1024x400 S400x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x26.size a ≤ S16384x26.size a
  hwx0_0 : ∀ i : grid0.Coords, EltTy.bits .f32 = 32 ∨ (Rect.block (s := S16384x26) S1024x26.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x26x16.size a ≤ S16384x26x16.size a
  hwx0_1 : ∀ i : grid0.Coords, EltTy.bits .f32 = 32 ∨ (Rect.block (s := S16384x26x16) S1024x26x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x429.size a ≤ S16384x429.size a
  hwx0_2 : ∀ i : grid0.Coords, EltTy.bits .f32 = 32 ∨ (Rect.block (s := S16384x429) S1024x429.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x13.size a ≤ S16384x13.size a
  hwx0_3 : ∀ i : grid0.Coords, EltTy.bits .f32 = 32 ∨ (Rect.block (s := S16384x13) S1024x13.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S13x1.size a ≤ S13x1.size a
  hwx0_4 : ∀ i : grid0.Coords, EltTy.bits .f32 = 32 ∨ (Rect.block (s := S13x1) S13x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S429x400.size a ≤ S429x400.size a
  hwx0_6 : ∀ i : grid0.Coords, EltTy.bits .bf16 = 32 ∨ (Rect.block (s := S429x400) S429x400.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S400.size a ≤ S400.size a
  hwx0_7 : ∀ i : grid0.Coords, EltTy.bits .f32 = 32 ∨ (Rect.block (s := S400) S400.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S400x400.size a ≤ S400x400.size a
  hwx0_8 : ∀ i : grid0.Coords, EltTy.bits .bf16 = 32 ∨ (Rect.block (s := S400x400) S400x400.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S400.size a ≤ S400.size a
  hwx0_9 : ∀ i : grid0.Coords, EltTy.bits .f32 = 32 ∨ (Rect.block (s := S400) S400.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S400x400.size a ≤ S400x400.size a
  hwx0_10 : ∀ i : grid0.Coords, EltTy.bits .bf16 = 32 ∨ (Rect.block (s := S400x400) S400x400.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S400.size a ≤ S400.size a
  hwx0_11 : ∀ i : grid0.Coords, EltTy.bits .f32 = 32 ∨ (Rect.block (s := S400) S400.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S400x1.size a ≤ S400x1.size a
  hwx0_12 : ∀ i : grid0.Coords, EltTy.bits .bf16 = 32 ∨ (Rect.block (s := S400x1) S400x1.size (cc0_transform_12 i) (hinb0_12 i)).WholeWords (EltTy.packing .bf16)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1024x1.size a ≤ S16384x1.size a
  hwx0_13 : ∀ i : grid0.Coords, EltTy.bits .f32 = 32 ∨ (Rect.block (s := S16384x1) S1024x1.size (cc0_transform_13 i) (hinb0_13 i)).WholeWords (EltTy.packing .f32)

variable [Facts₀]

def gather_S26x100000x1_S16384x26x2_S16384x26x1_2_01_n_n_01_2_111 : GatherDims S26x100000x1 S16384x26x2 S16384x26x1 where
  offsetDims := [2]
  collapsedSliceDims := [0, 1]
  operandBatchingDims := []
  startIndicesBatchingDims := []
  startIndexMap := [0, 1]
  indexVectorDim := 2
  sliceSizes := ![1, 1, 1]
  wf := gather_S26x100000x1_S16384x26x2_S16384x26x1_2_01_n_n_01_2_111_wf
def gather_S26x100000x16_S16384x26x2_S16384x26x16_2_01_n_n_01_2_1116 : GatherDims S26x100000x16 S16384x26x2 S16384x26x16 where
  offsetDims := [2]
  collapsedSliceDims := [0, 1]
  operandBatchingDims := []
  startIndicesBatchingDims := []
  startIndexMap := [0, 1]
  indexVectorDim := 2
  sliceSizes := ![1, 1, 16]
  wf := gather_S26x100000x16_S16384x26x2_S16384x26x16_2_01_n_n_01_2_1116_wf
def dot_S1024x13_S13x1_S1024x1_1_0_0_1_n_n : DotDims S1024x13 S13x1 S1024x1 where
  lhsContracting := [1]
  rhsContracting := [0]
  lhsNonContracting := [0]
  rhsNonContracting := [1]
  lhsBatch := []
  rhsBatch := []
  wf := dot_S1024x13_S13x1_S1024x1_1_0_0_1_n_n_wf
def dot_S1024x429_S429x400_S1024x400_1_0_0_1_n_n : DotDims S1024x429 S429x400 S1024x400 where
  lhsContracting := [1]
  rhsContracting := [0]
  lhsNonContracting := [0]
  rhsNonContracting := [1]
  lhsBatch := []
  rhsBatch := []
  wf := dot_S1024x429_S429x400_S1024x400_1_0_0_1_n_n_wf
def dot_S1024x400_S400x400_S1024x400_1_0_0_1_n_n : DotDims S1024x400 S400x400 S1024x400 where
  lhsContracting := [1]
  rhsContracting := [0]
  lhsNonContracting := [0]
  rhsNonContracting := [1]
  lhsBatch := []
  rhsBatch := []
  wf := dot_S1024x400_S400x400_S1024x400_1_0_0_1_n_n_wf
def dot_S1024x400_S400x1_S1024x1_1_0_0_1_n_n : DotDims S1024x400 S400x1 S1024x1 where
  lhsContracting := [1]
  rhsContracting := [0]
  lhsNonContracting := [0]
  rhsNonContracting := [1]
  lhsBatch := []
  rhsBatch := []
  wf := dot_S1024x400_S400x1_S1024x1_1_0_0_1_n_n_wf

abbrev win0_0 : Pipeline.Window sig grid0 :=
  Pipeline.Window.ofSpec (Memref.whole main_v17) S1024x26.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S1024x26x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v34) S1024x429.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1024x13.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S13x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v35) S429x400.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S400.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v36) S400x400.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S400.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v37) S400x400.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S400.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v38) S400x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v39) S1024x1.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S16384x26 : Shape := ⟨2, ![16384, 26]⟩
abbrev S16384x13 : Shape := ⟨2, ![16384, 13]⟩
abbrev S26x100000x1 : Shape := ⟨3, ![26, 100000, 1]⟩
abbrev S26x100000x16 : Shape := ⟨3, ![26, 100000, 16]⟩
abbrev S13x1 : Shape := ⟨2, ![13, 1]⟩
abbrev S1 : Shape := ⟨1, ![1]⟩
abbrev S429x400 : Shape := ⟨2, ![429, 400]⟩
abbrev S400 : Shape := ⟨1, ![400]⟩
abbrev S400x400 : Shape := ⟨2, ![400, 400]⟩
abbrev S400x1 : Shape := ⟨2, ![400, 1]⟩
abbrev S26 : Shape := ⟨1, ![26]⟩
abbrev S1x26 : Shape := ⟨2, ![1, 26]⟩
abbrev S_ : Shape := ⟨0, ![]⟩
abbrev S16384x26x1 : Shape := ⟨3, ![16384, 26, 1]⟩
abbrev S16384x26x2 : Shape := ⟨3, ![16384, 26, 2]⟩
abbrev S16384 : Shape := ⟨1, ![16384]⟩
abbrev S16384x1 : Shape := ⟨2, ![16384, 1]⟩
abbrev S16384x26x16 : Shape := ⟨3, ![16384, 26, 16]⟩
abbrev S16384x16 : Shape := ⟨2, ![16384, 16]⟩
abbrev S16384x416 : Shape := ⟨2, ![16384, 416]⟩
abbrev S16384x429 : Shape := ⟨2, ![16384, 429]⟩
abbrev S16384x400 : Shape := ⟨2, ![16384, 400]⟩
abbrev S1x400 : Shape := ⟨2, ![1, 400]⟩
abbrev S1x1 : Shape := ⟨2, ![1, 1]⟩

abbrev nBuf : Space → Nat
  | .hbm => 101
  | .vmem => 0
  | .smem => 0
  | _ => 0

abbrev bufTy : (tb : Table) → Fin (tcTables nBuf tb) → BufTy
  | .hbm, ⟨0, _⟩ => ⟨S16384x26, .i32⟩
  | .hbm, ⟨1, _⟩ => ⟨S16384x13, .f32⟩
  | .hbm, ⟨2, _⟩ => ⟨S26x100000x1, .f32⟩
  | .hbm, ⟨3, _⟩ => ⟨S26x100000x16, .f32⟩
  | .hbm, ⟨4, _⟩ => ⟨S13x1, .f32⟩
  | .hbm, ⟨5, _⟩ => ⟨S1, .f32⟩
  | .hbm, ⟨6, _⟩ => ⟨S429x400, .f32⟩
  | .hbm, ⟨7, _⟩ => ⟨S400, .f32⟩
  | .hbm, ⟨8, _⟩ => ⟨S400x400, .f32⟩
  | .hbm, ⟨9, _⟩ => ⟨S400, .f32⟩
  | .hbm, ⟨10, _⟩ => ⟨S400x400, .f32⟩
  | .hbm, ⟨11, _⟩ => ⟨S400, .f32⟩
  | .hbm, ⟨12, _⟩ => ⟨S400x1, .f32⟩
  | .hbm, ⟨13, _⟩ => ⟨S26, .i32⟩
  | .hbm, ⟨14, _⟩ => ⟨S1x26, .i32⟩
  | .hbm, ⟨15, _⟩ => ⟨S_, .i32⟩
  | .hbm, ⟨16, _⟩ => ⟨S1x26, .i32⟩
  | .hbm, ⟨17, _⟩ => ⟨S1x26, .i1⟩
  | .hbm, ⟨18, _⟩ => ⟨S_, .i32⟩
  | .hbm, ⟨19, _⟩ => ⟨S1x26, .i32⟩
  | .hbm, ⟨20, _⟩ => ⟨S1x26, .i32⟩
  | .hbm, ⟨21, _⟩ => ⟨S1x26, .i32⟩
  | .hbm, ⟨22, _⟩ => ⟨S_, .i32⟩
  | .hbm, ⟨23, _⟩ => ⟨S16384x26, .i32⟩
  | .hbm, ⟨24, _⟩ => ⟨S16384x26, .i1⟩
  | .hbm, ⟨25, _⟩ => ⟨S_, .i32⟩
  | .hbm, ⟨26, _⟩ => ⟨S16384x26, .i32⟩
  | .hbm, ⟨27, _⟩ => ⟨S16384x26, .i32⟩
  | .hbm, ⟨28, _⟩ => ⟨S16384x26, .i32⟩
  | .hbm, ⟨29, _⟩ => ⟨S16384x26, .i32⟩
  | .hbm, ⟨30, _⟩ => ⟨S16384x26x1, .i32⟩
  | .hbm, ⟨31, _⟩ => ⟨S16384x26x1, .i32⟩
  | .hbm, ⟨32, _⟩ => ⟨S16384x26x2, .i32⟩
  | .hbm, ⟨33, _⟩ => ⟨S16384x26x1, .f32⟩
  | .hbm, ⟨34, _⟩ => ⟨S16384x26, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S16384x1, .f32⟩
  | .hbm, ⟨39, _⟩ => ⟨S16384x1, .f32⟩
  | .hbm, ⟨40, _⟩ => ⟨S_, .i32⟩
  | .hbm, ⟨41, _⟩ => ⟨S1x26, .i32⟩
  | .hbm, ⟨42, _⟩ => ⟨S1x26, .i1⟩
  | .hbm, ⟨43, _⟩ => ⟨S_, .i32⟩
  | .hbm, ⟨44, _⟩ => ⟨S1x26, .i32⟩
  | .hbm, ⟨45, _⟩ => ⟨S1x26, .i32⟩
  | .hbm, ⟨46, _⟩ => ⟨S1x26, .i32⟩
  | .hbm, ⟨47, _⟩ => ⟨S_, .i32⟩
  | .hbm, ⟨48, _⟩ => ⟨S16384x26, .i32⟩
  | .hbm, ⟨49, _⟩ => ⟨S16384x26, .i1⟩
  | .hbm, ⟨50, _⟩ => ⟨S_, .i32⟩
  | .hbm, ⟨51, _⟩ => ⟨S16384x26, .i32⟩
  | .hbm, ⟨52, _⟩ => ⟨S16384x26, .i32⟩
  | .hbm, ⟨53, _⟩ => ⟨S16384x26, .i32⟩
  | .hbm, ⟨54, _⟩ => ⟨S16384x26, .i32⟩
  | .hbm, ⟨55, _⟩ => ⟨S16384x26x1, .i32⟩
  | .hbm, ⟨56, _⟩ => ⟨S16384x26x1, .i32⟩
  | .hbm, ⟨57, _⟩ => ⟨S16384x26x2, .i32⟩
  | .hbm, ⟨58, _⟩ => ⟨S16384x26x16, .f32⟩
  | .hbm, ⟨59, _⟩ => ⟨S_, .f32⟩
  | .hbm, ⟨60, _⟩ => ⟨S16384x16, .f32⟩
  | .hbm, ⟨61, _⟩ => ⟨S16384x16, .f32⟩
  | .hbm, ⟨62, _⟩ => ⟨S16384x26x16, .f32⟩
  | .hbm, ⟨63, _⟩ => ⟨S_, .f32⟩
  | .hbm, ⟨64, _⟩ => ⟨S16384x16, .f32⟩
  | .hbm, ⟨65, _⟩ => ⟨S16384x16, .f32⟩
  | .hbm, ⟨66, _⟩ => ⟨S_, .f32⟩
  | .hbm, ⟨67, _⟩ => ⟨S16384, .f32⟩
  | .hbm, ⟨68, _⟩ => ⟨S16384x1, .f32⟩
  | .hbm, ⟨69, _⟩ => ⟨S_, .f32⟩
  | .hbm, ⟨70, _⟩ => ⟨S16384x1, .f32⟩
  | .hbm, ⟨71, _⟩ => ⟨S16384x1, .f32⟩
  | .hbm, ⟨72, _⟩ => ⟨S16384x1, .f32⟩
  | .hbm, ⟨73, _⟩ => ⟨S16384x416, .f32⟩
  | .hbm, ⟨74, _⟩ => ⟨S16384x429, .f32⟩
  | .hbm, ⟨75, _⟩ => ⟨S16384x400, .f32⟩
  | .hbm, ⟨76, _⟩ => ⟨S1x400, .f32⟩
  | .hbm, ⟨77, _⟩ => ⟨S16384x400, .f32⟩
  | .hbm, ⟨78, _⟩ => ⟨S16384x400, .f32⟩
  | .hbm, ⟨79, _⟩ => ⟨S_, .f32⟩
  | .hbm, ⟨80, _⟩ => ⟨S16384x400, .f32⟩
  | .hbm, ⟨81, _⟩ => ⟨S16384x400, .f32⟩
  | .hbm, ⟨82, _⟩ => ⟨S16384x400, .f32⟩
  | .hbm, ⟨83, _⟩ => ⟨S1x400, .f32⟩
  | .hbm, ⟨84, _⟩ => ⟨S16384x400, .f32⟩
  | .hbm, ⟨85, _⟩ => ⟨S16384x400, .f32⟩
  | .hbm, ⟨86, _⟩ => ⟨S_, .f32⟩
  | .hbm, ⟨87, _⟩ => ⟨S16384x400, .f32⟩
  | .hbm, ⟨88, _⟩ => ⟨S16384x400, .f32⟩
  | .hbm, ⟨89, _⟩ => ⟨S16384x400, .f32⟩
  | .hbm, ⟨90, _⟩ => ⟨S1x400, .f32⟩
  | .hbm, ⟨91, _⟩ => ⟨S16384x400, .f32⟩
  | .hbm, ⟨92, _⟩ => ⟨S16384x400, .f32⟩
  | .hbm, ⟨93, _⟩ => ⟨S_, .f32⟩
  | .hbm, ⟨94, _⟩ => ⟨S16384x400, .f32⟩
  | .hbm, ⟨95, _⟩ => ⟨S16384x400, .f32⟩
  | .hbm, ⟨96, _⟩ => ⟨S16384x1, .f32⟩
  | .hbm, ⟨97, _⟩ => ⟨S16384x1, .f32⟩
  | .hbm, ⟨98, _⟩ => ⟨S1x1, .f32⟩
  | .hbm, ⟨99, _⟩ => ⟨S16384x1, .f32⟩
  | .hbm, ⟨100, _⟩ => ⟨S16384x1, .f32⟩
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_3 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_cst_10 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_call0_cst : Ref sig .tc := ⟨.hbm, 79, rfl⟩
abbrev main_call0_v0 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_call1_cst : Ref sig .tc := ⟨.hbm, 86, rfl⟩
abbrev main_call1_v0 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_call2_cst : Ref sig .tc := ⟨.hbm, 93, rfl⟩
abbrev main_call2_v0 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩

abbrev nD : Nat := 1
abbrev τ : Topo := Topo.v7x

variable {F : FTy → Type} [FloatOps F]

class Facts₀ : Prop where
  bcast_S26_S1x26_1 : S26.BroadcastsInDim S1x26 (![1] : Fin 1 → Fin S1x26.rank)
  bcast_S_S1x26 : S_.BroadcastsInDim S1x26 (![] : Fin 0 → Fin S1x26.rank)
  bcast_S_S16384x26 : S_.BroadcastsInDim S16384x26 (![] : Fin 0 → Fin S16384x26.rank)
  bcast_S1x26_S16384x26_0_1 : S1x26.BroadcastsInDim S16384x26 (![0, 1] : Fin 2 → Fin S16384x26.rank)
  bcast_S16384x26_S16384x26x1_0_1 : S16384x26.BroadcastsInDim S16384x26x1 (![0, 1] : Fin 2 → Fin S16384x26x1.rank)
  concatenates_S16384x26x1_S16384x26x1_S16384x26x2_d2 : Shape.Concatenates [S16384x26x1, S16384x26x1] S16384x26x2 2
  shapeCasts_S16384x26x1_S16384x26 : S16384x26x1.ShapeCasts S16384x26
  reducesTo_S16384x26_S16384_d1 : S16384x26.ReducesTo [1] S16384
  h_S_ : 0 < S_.numel
  bcast_S16384_S16384x1_0 : S16384.BroadcastsInDim S16384x1 (![0] : Fin 1 → Fin S16384x1.rank)
  reducesTo_S16384x26x16_S16384x16_d1 : S16384x26x16.ReducesTo [1] S16384x16
  reducesTo_S16384x16_S16384_d1 : S16384x16.ReducesTo [1] S16384
  bcast_S_S16384x1 : S_.BroadcastsInDim S16384x1 (![] : Fin 0 → Fin S16384x1.rank)
  shapeCasts_S16384x26x16_S16384x416 : S16384x26x16.ShapeCasts S16384x416
  concatenates_S16384x416_S16384x13_S16384x429_d1 : Shape.Concatenates [S16384x416, S16384x13] S16384x429 1
  bcast_S400_S1x400_1 : S400.BroadcastsInDim S1x400 (![1] : Fin 1 → Fin S1x400.rank)
  bcast_S1x400_S16384x400_0_1 : S1x400.BroadcastsInDim S16384x400 (![0, 1] : Fin 2 → Fin S16384x400.rank)
  bcast_S_S16384x400 : S_.BroadcastsInDim S16384x400 (![] : Fin 0 → Fin S16384x400.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  gather_S26x100000x1_S16384x26x2_S16384x26x1_2_01_n_n_01_2_111_wf : GatherDims.WF S26x100000x1 S16384x26x2 S16384x26x1 [2] [0, 1] [] [0, 1] [] 2 ![1, 1, 1]
  dot_S16384x13_S13x1_S16384x1_1_0_0_1_n_n_wf : DotDims.WF S16384x13 S13x1 S16384x1 [1] [0] [0] [1] [] []
  gather_S26x100000x16_S16384x26x2_S16384x26x16_2_01_n_n_01_2_1116_wf : GatherDims.WF S26x100000x16 S16384x26x2 S16384x26x16 [2] [0, 1] [] [0, 1] [] 2 ![1, 1, 16]
  dot_S16384x429_S429x400_S16384x400_1_0_0_1_n_n_wf : DotDims.WF S16384x429 S429x400 S16384x400 [1] [0] [0] [1] [] []
  dot_S16384x400_S400x400_S16384x400_1_0_0_1_n_n_wf : DotDims.WF S16384x400 S400x400 S16384x400 [1] [0] [0] [1] [] []
  dot_S16384x400_S400x1_S16384x1_1_0_0_1_n_n_wf : DotDims.WF S16384x400 S400x1 S16384x1 [1] [0] [0] [1] [] []

variable [Facts₀]

def gather_S26x100000x1_S16384x26x2_S16384x26x1_2_01_n_n_01_2_111 : GatherDims S26x100000x1 S16384x26x2 S16384x26x1 where
  offsetDims := [2]
  collapsedSliceDims := [0, 1]
  operandBatchingDims := []
  startIndicesBatchingDims := []
  startIndexMap := [0, 1]
  indexVectorDim := 2
  sliceSizes := ![1, 1, 1]
  wf := gather_S26x100000x1_S16384x26x2_S16384x26x1_2_01_n_n_01_2_111_wf
def dot_S16384x13_S13x1_S16384x1_1_0_0_1_n_n : DotDims S16384x13 S13x1 S16384x1 where
  lhsContracting := [1]
  rhsContracting := [0]
  lhsNonContracting := [0]
  rhsNonContracting := [1]
  lhsBatch := []
  rhsBatch := []
  wf := dot_S16384x13_S13x1_S16384x1_1_0_0_1_n_n_wf
def gather_S26x100000x16_S16384x26x2_S16384x26x16_2_01_n_n_01_2_1116 : GatherDims S26x100000x16 S16384x26x2 S16384x26x16 where
  offsetDims := [2]
  collapsedSliceDims := [0, 1]
  operandBatchingDims := []
  startIndicesBatchingDims := []
  startIndexMap := [0, 1]
  indexVectorDim := 2
  sliceSizes := ![1, 1, 16]
  wf := gather_S26x100000x16_S16384x26x2_S16384x26x16_2_01_n_n_01_2_1116_wf
def dot_S16384x429_S429x400_S16384x400_1_0_0_1_n_n : DotDims S16384x429 S429x400 S16384x400 where
  lhsContracting := [1]
  rhsContracting := [0]
  lhsNonContracting := [0]
  rhsNonContracting := [1]
  lhsBatch := []
  rhsBatch := []
  wf := dot_S16384x429_S429x400_S16384x400_1_0_0_1_n_n_wf
def dot_S16384x400_S400x400_S16384x400_1_0_0_1_n_n : DotDims S16384x400 S400x400 S16384x400 where
  lhsContracting := [1]
  rhsContracting := [0]
  lhsNonContracting := [0]
  rhsNonContracting := [1]
  lhsBatch := []
  rhsBatch := []
  wf := dot_S16384x400_S400x400_S16384x400_1_0_0_1_n_n_wf
def dot_S16384x400_S400x1_S16384x1_1_0_0_1_n_n : DotDims S16384x400 S400x1 S16384x1 where
  lhsContracting := [1]
  rhsContracting := [0]
  lhsNonContracting := [0]
  rhsNonContracting := [1]
  lhsBatch := []
  rhsBatch := []
  wf := dot_S16384x400_S400x1_S16384x1_1_0_0_1_n_n_wf

class Facts : Prop extends Facts₀ where

variable [Facts]
-- ==== Proof.Spec.lean ====
/-
  The function both programs compute, one output row at a time.

  For a row with sparse first-order embeddings `e1 j` (26 of them), second-order embeddings `e2 j e` (26 × 16),
  dense features `xd k` (13) and the DNN input `d k` (429: the 416 flattened second-order entries followed by the
  13 dense features), the logit is

    (Σ_j e1 j + Σ_k xd k · lw k)                                       first-order term
    + ½ · Σ_e ((Σ_j e2 j e)² − Σ_j (e2 j e)²)                          second-order cross term
    + Σ_k h₃ k · wo k                                                  three-layer ReLU network
    + bias,

  where h₁ = relu(d · W0 + b0), h₂ = relu(h₁ · W1 + b1), h₃ = relu(h₂ · W2 + b2). Every operation is the exact
  one on the extended reals; no law beyond the definition of each sum is used anywhere below, so the two sides
  of the certificate agree term by term and nothing depends on the inputs being finite.
-/
import Idealize.ShloMosaic.PureOps.Ideal
import Idealize.ShloMosaic.Lib.ValueIdx

noncomputable section

namespace Cert.FmDnn

open Idealize.ShloMosaic

/-- One dense layer followed by ReLU, at output unit `n`: `max (Σ_k x k · W k n + b n) 0`. -/
def layer {K N : Nat} (x : Fin K → EReal) (W : Fin K → Fin N → EReal) (b : Fin N → EReal) (n : Fin N) : EReal :=
  max ((∑ k : Fin K, x k * W k n) + b n) 0

/-- The factorization-machine part of a row's logit: the first-order sums plus half the cross term. -/
def fmPart (e1 : Fin 26 → EReal) (e2 : Fin 26 → Fin 16 → EReal) (xd : Fin 13 → EReal) (lw : Fin 13 → EReal) : EReal :=
  ((∑ j : Fin 26, e1 j) + ∑ k : Fin 13, xd k * lw k)
    + Ideal.ofBits .f32 0x3F000000#32
      * ∑ e : Fin 16, ((∑ j : Fin 26, e2 j e) * (∑ j : Fin 26, e2 j e) - ∑ j : Fin 26, e2 j e * e2 j e)

/-- The network part of a row's logit given the first hidden layer `h1` (already through its ReLU):
    two more layers, then the output weights. -/
def dnnTail (h1 : Fin 400 → EReal) (W1 : Fin 400 → Fin 400 → EReal) (b1 : Fin 400 → EReal)
    (W2 : Fin 400 → Fin 400 → EReal) (b2 : Fin 400 → EReal) (wo : Fin 400 → EReal) : EReal :=
  ∑ k : Fin 400, layer (layer h1 W1 b1) W2 b2 k * wo k

/-- A row's logit. -/
def rowOut (e1 : Fin 26 → EReal) (e2 : Fin 26 → Fin 16 → EReal) (d : Fin 429 → EReal) (xd : Fin 13 → EReal)
    (lw : Fin 13 → EReal) (bias : EReal) (W0 : Fin 429 → Fin 400 → EReal) (b0 : Fin 400 → EReal)
    (W1 : Fin 400 → Fin 400 → EReal) (b1 : Fin 400 → EReal) (W2 : Fin 400 → Fin 400 → EReal) (b2 : Fin 400 → EReal)
    (wo : Fin 400 → EReal) : EReal :=
  (fmPart e1 e2 xd lw + dnnTail (layer d W0 b0) W1 b1 W2 b2 wo) + bias

end Cert.FmDnn

end
-- ==== Proof.Whole.lean ====
/-
  The whole result array as one function of the arrays the kernel's windows stage: row `r` of the result is the
  row function `rowOut` of row `r` of the four batch-major arrays and of the (whole) weight arrays.
-/
import proofs.«175087_j67491116089396_1_alg».proof.Proof.Spec

noncomputable section

namespace Cert.FmDnn

open Idealize.ShloMosaic Idealize.ShloMosaic.ValueIdx

/-- The result array [16384, 1] from the first-order embeddings `A0` [16384, 26], the second-order embeddings `A1`
    [16384, 26, 16], the network input `A2` [16384, 429], the dense features `A3` [16384, 13], and the weights
    (`A4` … `A12`): entry `(r, 0)` is the logit of row `r`. -/
def G (A0 : (⟨2, ![16384, 26]⟩ : Shape).Idx → EReal) (A1 : (⟨3, ![16384, 26, 16]⟩ : Shape).Idx → EReal)
    (A2 : (⟨2, ![16384, 429]⟩ : Shape).Idx → EReal) (A3 : (⟨2, ![16384, 13]⟩ : Shape).Idx → EReal)
    (A4 : (⟨2, ![13, 1]⟩ : Shape).Idx → EReal) (A5 : (⟨1, ![1]⟩ : Shape).Idx → EReal)
    (A6 : (⟨2, ![429, 400]⟩ : Shape).Idx → EReal) (A7 : (⟨1, ![400]⟩ : Shape).Idx → EReal)
    (A8 : (⟨2, ![400, 400]⟩ : Shape).Idx → EReal) (A9 : (⟨1, ![400]⟩ : Shape).Idx → EReal)
    (A10 : (⟨2, ![400, 400]⟩ : Shape).Idx → EReal) (A11 : (⟨1, ![400]⟩ : Shape).Idx → EReal)
    (A12 : (⟨2, ![400, 1]⟩ : Shape).Idx → EReal) : (⟨2, ![16384, 1]⟩ : Shape).Idx → EReal :=
  fun i => rowOut (fun j => A0 (ix2 (i 0) j)) (fun j e => A1 (ix3 (i 0) j e)) (fun k => A2 (ix2 (i 0) k))
    (fun k => A3 (ix2 (i 0) k)) (fun k => A4 (ix2 k 0)) (A5 (ix1 0)) (fun k n => A6 (ix2 k n)) (fun n => A7 (ix1 n))
    (fun k n => A8 (ix2 k n)) (fun n => A9 (ix1 n)) (fun k n => A10 (ix2 k n)) (fun n => A11 (ix1 n))
    (fun k => A12 (ix2 k 0))

end Cert.FmDnn

end
-- ==== Proof.KernelFm.lean ====
/-
  The factorization-machine part of the kernel's body, read one row at a time.

  For a block of 1024 rows the body forms, from the first-order embeddings `x0 : [1024, 26]`, the second-order
  embeddings `x1 : [1024, 26, 16]`, the dense features `x3 : [1024, 13]` and the linear weights `x4 : [13, 1]`,
  a 1024 × 1 column whose entry at row `p` is

      (Σ_j x0 (p, j)  +  Σ_k x3 (p, k) · x4 (k, 0))  +  ½ · Σ_e ((Σ_j x1 (p, j, e))² − Σ_j x1 (p, j, e)²).

  Every step of the body is of one of four kinds: a pointwise operation, which commutes with reading at an index; a
  change of layout that keeps the row-major position (a length-1024 vector viewed as a 1024 × 1 column; a cast of
  a shape to itself); a sum along one axis, which at an index of the result is the finite sum over that axis's
  coordinates with the other coordinates held fixed; and a matrix product into a zero accumulator, which at an
  output index is the sum over the contraction coordinate of the operands' products. The lemmas below read each
  non-pointwise step at explicit coordinates `(p : Fin 1024)`, `(e : Fin 16)`; composing them gives exactly
  `fmPart` of the row's entries. Only the definition of each operation is used, no algebraic law, so nothing
  depends on the entries being finite.
-/
import proofs.«175087_j67491116089396_1_alg».proof.Proof.Gen.KernelIdeal.Skeleton
import proofs.«175087_j67491116089396_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.FmDnn.KernelFm

open Idealize.ShloMosaic Idealize.ShloMosaic.ValueIdx Cert.KernelIdeal Cert.KernelIdeal.Gen Cert.FmDnn

/-! ## A vector as a column -/

/-- A length-1024 vector viewed as a 1024 × 1 column reads, at row `p` of its one column, the vector's entry `p`:
    the two indices have the same row-major position `p · 1 + 0 = p`. -/
theorem column_apply (v : FVec Ideal S1024 .f32) (p : Fin 1024) :
    shapeCast S1024x1 v shapeCasts_S1024_S1024x1 (ix2 p 0) = v (ix1 p) :=
  shapeCast_apply v shapeCasts_S1024_S1024x1 _ _ (by
    rw [Shape.rowMajor_val_one, Shape.rowMajor_val_two]
    show p.val = p.val * 1 + 0
    omega)

/-! ## The three sums along an axis

Each is stated for any witnesses `hφ`, `hacc` of the reduction's two side conditions (the element type is a float
format; the accumulator's word is the zero word, the neutral element of addition). At an index of the result the
sum runs over the reduced axis's coordinate, inserted among the index's own coordinates at that axis's place. -/

/-- The sum of a 1024 × 26 array along its second axis, at row `p`: the 26 entries `(p, j)` of that row. -/
theorem rowSum26_apply (v : FVec Ideal S1024x26 .f32) (hφ : FKind.Formats .f32)
    (hacc : (0x00000000#32 : BitVec 32) = 0x00000000#32) (p : Fin 1024) :
    multiReduction (F := Ideal) .add [1] S1024 v 0x00000000#32 reduces_S1024x26_S1024 hφ hacc (ix1 p)
      = ∑ j : Fin 26, v (ix2 p j) := by
  refine (Ideal.multiReduction_add_single v 0x00000000#32 reduces_S1024x26_S1024 hφ hacc (ix1 p)).trans ?_
  refine Finset.sum_congr rfl fun j _ => congrArg v ?_
  exact funext fun a => Fin.ext (by match a with | ⟨0, _⟩ => rfl | ⟨1, _⟩ => rfl)

/-- The sum of a 1024 × 26 × 16 array along its middle axis, at `(p, e)`: the 26 entries `(p, j, e)`. -/
theorem fieldSum_apply (v : FVec Ideal S1024x26x16 .f32) (hφ : FKind.Formats .f32)
    (hacc : (0x00000000#32 : BitVec 32) = 0x00000000#32) (p : Fin 1024) (e : Fin 16) :
    multiReduction (F := Ideal) .add [1] S1024x16 v 0x00000000#32 reduces_S1024x26x16_S1024x16 hφ hacc (ix2 p e)
      = ∑ j : Fin 26, v (ix3 p j e) := by
  refine (Ideal.multiReduction_add_single v 0x00000000#32 reduces_S1024x26x16_S1024x16 hφ hacc (ix2 p e)).trans ?_
  refine Finset.sum_congr rfl fun j _ => congrArg v ?_
  exact funext fun a => Fin.ext (by match a with | ⟨0, _⟩ => rfl | ⟨1, _⟩ => rfl | ⟨2, _⟩ => rfl)

/-- The sum of a 1024 × 16 array along its second axis, at row `p`: the 16 entries `(p, e)` of that row. -/
theorem rowSum16_apply (v : FVec Ideal S1024x16 .f32) (hφ : FKind.Formats .f32)
    (hacc : (0x00000000#32 : BitVec 32) = 0x00000000#32) (p : Fin 1024) :
    multiReduction (F := Ideal) .add [1] S1024 v 0x00000000#32 reduces_S1024x16_S1024 hφ hacc (ix1 p)
      = ∑ e : Fin 16, v (ix2 p e) := by
  refine (Ideal.multiReduction_add_single v 0x00000000#32 reduces_S1024x16_S1024 hφ hacc (ix1 p)).trans ?_
  refine Finset.sum_congr rfl fun e _ => congrArg v ?_
  exact funext fun a => Fin.ext (by match a with | ⟨0, _⟩ => rfl | ⟨1, _⟩ => rfl)

/-! ## The dense features times the linear weights

The product contracts the left operand's second axis with the right operand's first. At output index `i` and
contraction index `q` the left operand is read at (row of `i`, `q`) and the right operand at (`q`, column of `i`). -/

/-- The left operand's index of the 1024 × 13 by 13 × 1 product has the output's row. -/
theorem lhs_row (i : S1024x1.Idx) (q : dot_S1024x13_S13x1_S1024x1_1_0_0_1_n_n.contr.Idx) :
    (dot_S1024x13_S13x1_S1024x1_1_0_0_1_n_n.lhsIdx i q 0).val = (i 0).val := by
  unfold DotDims.lhsIdx
  rw [dif_neg (show ¬(0 : Fin S1024x13.rank) ∈ dot_S1024x13_S13x1_S1024x1_1_0_0_1_n_n.lhsBatch by decide), dif_pos (show (0 : Fin S1024x13.rank) ∈ dot_S1024x13_S13x1_S1024x1_1_0_0_1_n_n.lhsNonContracting by decide)]
  rfl

/-- Its column is the contraction coordinate. -/
theorem lhs_col (i : S1024x1.Idx) (q : dot_S1024x13_S13x1_S1024x1_1_0_0_1_n_n.contr.Idx) :
    (dot_S1024x13_S13x1_S1024x1_1_0_0_1_n_n.lhsIdx i q 1).val = (q ⟨0, by decide⟩).val :=
  dot_S1024x13_S13x1_S1024x1_1_0_0_1_n_n.lhsIdx_val_of_single rfl i q

/-- The right operand's row is the contraction coordinate. -/
theorem rhs_row (i : S1024x1.Idx) (q : dot_S1024x13_S13x1_S1024x1_1_0_0_1_n_n.contr.Idx) :
    (dot_S1024x13_S13x1_S1024x1_1_0_0_1_n_n.rhsIdx i q 0).val = (q ⟨0, by decide⟩).val :=
  dot_S1024x13_S13x1_S1024x1_1_0_0_1_n_n.rhsIdx_val_of_single rfl i q

/-- Its column is the output's column. -/
theorem rhs_col (i : S1024x1.Idx) (q : dot_S1024x13_S13x1_S1024x1_1_0_0_1_n_n.contr.Idx) :
    (dot_S1024x13_S13x1_S1024x1_1_0_0_1_n_n.rhsIdx i q 1).val = (i 1).val := by
  unfold DotDims.rhsIdx
  rw [dif_neg (show ¬(1 : Fin S13x1.rank) ∈ dot_S1024x13_S13x1_S1024x1_1_0_0_1_n_n.rhsBatch by decide), dif_pos (show (1 : Fin S13x1.rank) ∈ dot_S1024x13_S13x1_S1024x1_1_0_0_1_n_n.rhsNonContracting by decide)]
  rfl

/-- The 1024 × 13 by 13 × 1 product accumulated into zero, at row `p` of its one column: the 13 products
    `l (p, k) · r (k, 0)`. -/
theorem linear_apply (l : FVec Ideal S1024x13 .f32) (r : FVec Ideal S13x1 .f32) (p : Fin 1024) :
    matmul (F := Ideal) dot_S1024x13_S13x1_S1024x1_1_0_0_1_n_n none l r (constant (F := Ideal) S1024x1 .f32 0x00000000#32) (ix2 p 0)
      = ∑ k : Fin 13, l (ix2 p k) * r (ix2 k 0) := by
  simp only [matmul]
  rw [Ideal.matmul_constant_zero_apply, ← Equiv.sum_comp (contrEquiv1 dot_S1024x13_S13x1_S1024x1_1_0_0_1_n_n 13 rfl rfl).symm]
  refine Finset.sum_congr rfl fun k _ => ?_
  have hk := contrEquiv1_symm_val dot_S1024x13_S13x1_S1024x1_1_0_0_1_n_n 13 rfl rfl k
  have el : dot_S1024x13_S13x1_S1024x1_1_0_0_1_n_n.lhsIdx (ix2 p 0) ((contrEquiv1 dot_S1024x13_S13x1_S1024x1_1_0_0_1_n_n 13 rfl rfl).symm k) = ix2 p k := funext fun a => Fin.ext (by
    match a with
    | ⟨0, _⟩ => exact lhs_row _ _
    | ⟨1, _⟩ => exact (lhs_col _ _).trans hk)
  have er : dot_S1024x13_S13x1_S1024x1_1_0_0_1_n_n.rhsIdx (ix2 p 0) ((contrEquiv1 dot_S1024x13_S13x1_S1024x1_1_0_0_1_n_n 13 rfl rfl).symm k) = ix2 k 0 := funext fun a => Fin.ext (by
    match a with
    | ⟨0, _⟩ => exact (rhs_row _ _).trans hk
    | ⟨1, _⟩ => exact rhs_col _ _)
  rw [el, er]

/-! ## The payload -/

/-- The factorization-machine payload at row `p` of its one column is `fmPart` of that row's entries: the sum of
    the row's 26 first-order embeddings, plus the row's 13 dense features against the linear weights, plus one half
    of the sum over the 16 embedding coordinates of (the square of the 26-term sum minus the 26-term sum of
    squares). The pointwise steps and the casts are read directly; the two outer sums and the product by the
    lemmas above; the inner sums, which stand under the sum over `e`, term by term. -/
theorem pay2_apply (x0 : Vec Ideal S1024x26 .f32) (x1 : Vec Ideal S1024x26x16 .f32) (x3 : Vec Ideal S1024x13 .f32) (x4 : Vec Ideal S13x1 .f32) (p : Fin 1024) :
    k0_pay2 (F := Ideal) x0 x1 x3 x4 (ix2 p 0)
      = fmPart (fun j => x0 (ix2 p j)) (fun j e => x1 (ix3 p j e)) (fun k => x3 (ix2 p k)) (fun k => x4 (ix2 k 0)) := by
  unfold k0_pay2 fmPart
  simp only [shapeCast_self, addf_apply, mulf_apply, subf_apply, broadcast_apply, column_apply, linear_apply]
  rw [rowSum26_apply, rowSum16_apply]
  refine congrArg₂ (· + ·) rfl (congrArg₂ (· * ·) rfl (Finset.sum_congr rfl fun e _ => ?_))
  rw [subf_apply, mulf_apply, fieldSum_apply, fieldSum_apply]
  rfl

end Cert.FmDnn.KernelFm

end
-- ==== Proof.KernelDnn.lean ====
/-
  The kernel's three-layer ReLU network, read one element at a time.

  A dense layer of the kernel is a matrix product accumulated into zeros, plus the bias vector laid along every row,
  then the maximum with zero; the roundings to the narrower float format on the way into each product are the
  identity on the extended reals. Read at row `p` and unit `n` such a layer is

    max (Σ_k x[p, k] · W[k, n] + b[n]) 0,

  the specification's `layer` of row `p` of the input. The first hidden layer is one such layer of the dense input;
  the row's logit is the factorization-machine term plus Σ_k h₃[p, k] · wo[k] plus the bias, with h₂ and h₃ two more
  such layers: the specification's `dnnTail` of the first hidden layer's row `p`.
-/
import proofs.«175087_j67491116089396_1_alg».proof.Proof.Gen.KernelIdeal.Skeleton
import proofs.«175087_j67491116089396_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.KernelVsHost
import Idealize.ShloMosaic.Lib.StackMember

noncomputable section

namespace Cert.FmDnn.KernelDnn

open Idealize.ShloMosaic Idealize.ShloMosaic.ValueIdx Idealize.ShloMosaic.StackMember
open Cert.KernelIdeal Cert.KernelIdeal.Gen Cert.FmDnn

/-! ## The pieces of a layer -/

/-- The zero word denotes the extended real 0. -/
theorem zero_word : (Scalar.ofBits (F := Ideal) .f32 0x00000000#32 : Ideal .f32) = 0 := Ideal.ofBits_zero_f32

/-- A change to a narrower float format is the identity on a vector of extended reals. -/
theorem truncf_eq_self {s : Shape} {φ ψ : FTy} (a : FVec Ideal s φ) (h : ψ.bits < φ.bits) :
    (truncf ψ a h : FVec Ideal s ψ) = a :=
  funext fun i => truncf_apply a h i

/-- A product of an m×k by a k×n matrix accumulated into zeros, read at `(a, b)`: the sum over the contracted
    coordinate of the products of the entries. -/
theorem matmul_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) :=
  (congrFun (matmul_zero_eq_dotGeneral (DotDims.plain m k n) prec A B) (ix2 a b)).trans
    (dotGeneral_plain_apply prec A B a b)

/-- The first layer's dimension numbers are the plain 1024×429 by 429×400 product's. -/
theorem dot429_eq : dot_S1024x429_S429x400_S1024x400_1_0_0_1_n_n = DotDims.plain 1024 429 400 := rfl
/-- The hidden layers' dimension numbers are the plain 1024×400 by 400×400 product's. -/
theorem dot400_eq : dot_S1024x400_S400x400_S1024x400_1_0_0_1_n_n = DotDims.plain 1024 400 400 := rfl
/-- The output weights' dimension numbers are the plain 1024×400 by 400×1 product's. -/
theorem dot1_eq : dot_S1024x400_S400x1_S1024x1_1_0_0_1_n_n = DotDims.plain 1024 400 1 := rfl

/-- A bias vector cast to one row and laid along every row reads, at `(p, n)`, its entry `n`. -/
theorem biasRow_apply {a b : Nat} (v : FVec Ideal ⟨1, ![b]⟩ .f32) (hc : (⟨1, ![b]⟩ : Shape).ShapeCasts ⟨2, ![1, b]⟩)
    (hb : (⟨2, ![1, b]⟩ : Shape).Broadcasts ⟨2, ![a, b]⟩) (p : Fin a) (n : Fin b) :
    broadcastTo ⟨2, ![a, b]⟩ (shapeCast ⟨2, ![1, b]⟩ v hc) hb (ix2 p n) = v (ix1 n) :=
  (broadcastTo_1b_ab_apply _ hb p n).trans (shapeCast_a_1a_apply v hc 0 n)

/-! ## A layer read at an index -/

/-- The first layer — product into zeros, bias row, maximum with zero — at `(p, n)` is the specification's layer of
    row `p`. -/
theorem layer429_apply {φ₁ φ₂ : FTy} (x : FVec Ideal S1024x429 φ₁) (W : FVec Ideal S429x400 φ₂) (b : FVec Ideal S400 .f32)
    (p : Fin 1024) (n : Fin 400) :
    maximumf
        (addf (matmul dot_S1024x429_S429x400_S1024x400_1_0_0_1_n_n none x W (constant (F := Ideal) S1024x400 .f32 0x00000000#32))
          (broadcastTo S1024x400 (shapeCast S1x400 b shapeCasts_S400_S1x400) broadcasts_S1x400_S1024x400))
        (broadcast S1024x400 (Scalar.ofBits (F := Ideal) .f32 0x00000000#32)) (ix2 p n)
      = layer (fun k => x (ix2 p k)) (fun k n => W (ix2 k n)) (fun n => b (ix1 n)) n := by
  rw [maximumf_apply, addf_apply, broadcast_apply, zero_word, dot429_eq, matmul_plain_apply, biasRow_apply]
  rfl

/-- A hidden layer at `(p, n)` is the specification's layer of row `p`. -/
theorem layer400_apply {φ₁ φ₂ : FTy} (x : FVec Ideal S1024x400 φ₁) (W : FVec Ideal S400x400 φ₂) (b : FVec Ideal S400 .f32)
    (p : Fin 1024) (n : Fin 400) :
    maximumf
        (addf (matmul dot_S1024x400_S400x400_S1024x400_1_0_0_1_n_n none x W (constant (F := Ideal) S1024x400 .f32 0x00000000#32))
          (broadcastTo S1024x400 (shapeCast S1x400 b shapeCasts_S400_S1x400) broadcasts_S1x400_S1024x400))
        (broadcast S1024x400 (Scalar.ofBits (F := Ideal) .f32 0x00000000#32)) (ix2 p n)
      = layer (fun k => x (ix2 p k)) (fun k n => W (ix2 k n)) (fun n => b (ix1 n)) n := by
  rw [maximumf_apply, addf_apply, broadcast_apply, zero_word, dot400_eq, matmul_plain_apply, biasRow_apply]
  rfl

/-! ## The payloads -/

/-- The first hidden layer's payload at `(p, n)`: the specification's layer of row `p` of the dense input. -/
theorem pay3_apply (x2 : Vec Ideal S1024x429 .f32) (x6 : Vec Ideal S429x400 .bf16) (x7 : Vec Ideal S400 .f32) (p : Fin 1024) (n : Fin 400) :
    k0_pay3 (F := Ideal) x2 x6 x7 (ix2 p n) = layer (fun k => x2 (ix2 p k)) (fun k n => x6 (ix2 k n)) (fun n => x7 (ix1 n)) n := by
  unfold k0_pay3
  simp only [shapeCast_self, truncf_eq_self]
  exact layer429_apply x2 x6 x7 p n

/-- The second layer's weights pass through unchanged. -/
theorem pay4_apply (x8 : Vec Ideal S400x400 .bf16) (i : S400x400.Idx) : k0_pay4 (F := Ideal) x8 i = x8 i := by
  unfold k0_pay4
  rw [shapeCast_self]

/-- The stored logit of row `p`: the factorization-machine term, plus the network's tail of the first hidden layer's
    row `p`, plus the bias. -/
theorem pay1_apply (v21 : FVec Ideal S1024x1 .f32) (v32 : FVec Ideal S1024x400 .bf16) (v34 : FVec Ideal S400x400 .bf16) (x9 : Vec Ideal S400 .f32) (x10 : Vec Ideal S400x400 .bf16) (x11 : Vec Ideal S400 .f32) (x12 : Vec Ideal S400x1 .bf16) (x5 : Vec Ideal S1 .f32) (p : Fin 1024) :
    k0_pay1 (F := Ideal) v21 v32 v34 x9 x10 x11 x12 x5 (ix2 p 0)
      = (v21 (ix2 p 0) + dnnTail (fun k => v32 (ix2 p k)) (fun k n => v34 (ix2 k n)) (fun n => x9 (ix1 n)) (fun k n => x10 (ix2 k n)) (fun n => x11 (ix1 n)) (fun k => x12 (ix2 k 0))) + x5 (ix1 0) := by
  unfold k0_pay1
  simp only [shapeCast_self, truncf_eq_self]
  rw [addf_apply, addf_apply, dot1_eq, matmul_plain_apply, biasRow_apply]
  simp only [layer400_apply]
  rfl

end Cert.FmDnn.KernelDnn

end
-- ==== Proof.Blocks.lean ====
/-
  From blocks to the whole result array.

  The kernel runs on a grid of sixteen points. At point `t` it sees rows `1024 t … 1024 t + 1023` of the four
  batch-major arrays (first-order embeddings, second-order embeddings, network input, dense features), the whole of
  every weight array, and writes rows `1024 t … 1024 t + 1023` of the result. A row of the body's result is the
  row function `rowOut` of the same row of its input blocks (`pay_row`), and row `p` of a block at point `t` is row
  `1024 t + p` of the array it is cut from (`read0 … read3`, `emb13`; the weight windows are whole, `read4 … read12`).
  So what point `t` writes back is block `t` of the one whole-array function `G` (`tile`, stated for ANY arrays and
  only then used at the arrays the region finds), the sixteen blocks cover the result (`cover`: row `r` is in block
  `r / 1024`), and the result array ends holding `G` of the arrays the region finds (`final`, `run`).
-/
import proofs.«175087_j67491116089396_1_alg».proof.Proof.Gen.KernelIdeal.Value
import proofs.«175087_j67491116089396_1_alg».proof.Proof.Whole
import proofs.«175087_j67491116089396_1_alg».proof.Proof.KernelFm
import proofs.«175087_j67491116089396_1_alg».proof.Proof.KernelDnn
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.FmDnn.Blocks

open Cert.KernelIdeal Cert.KernelIdeal.Gen Cert.KernelIdeal.Value Cert.FmDnn

/-! ## A row of the body's result -/

/-- Row `p` of the body's stored value is the row function of row `p` of the batch-major blocks and of the whole
    weight blocks: the factorization-machine payload, the first hidden layer's payload and the network's tail, put
    together as the body composes them. -/
theorem pay_row (x0 : Vec Ideal S1024x26 .f32) (x1 : Vec Ideal S1024x26x16 .f32) (x2 : Vec Ideal S1024x429 .f32)
    (x3 : Vec Ideal S1024x13 .f32) (x4 : Vec Ideal S13x1 .f32) (x5 : Vec Ideal S1 .f32) (x6 : Vec Ideal S429x400 .bf16)
    (x7 : Vec Ideal S400 .f32) (x8 : Vec Ideal S400x400 .bf16) (x9 : Vec Ideal S400 .f32) (x10 : Vec Ideal S400x400 .bf16)
    (x11 : Vec Ideal S400 .f32) (x12 : Vec Ideal S400x1 .bf16) (p : Fin 1024) :
    k0_pay1 (F := Ideal) (k0_pay2 x0 x1 x3 x4) (k0_pay3 x2 x6 x7) (k0_pay4 x8) x9 x10 x11 x12 x5 (ix2 p 0)
      = rowOut (fun j => x0 (ix2 p j)) (fun j e => x1 (ix3 p j e)) (fun k => x2 (ix2 p k)) (fun k => x3 (ix2 p k))
          (fun k => x4 (ix2 k 0)) (x5 (ix1 0)) (fun k n => x6 (ix2 k n)) (fun n => x7 (ix1 n)) (fun k n => x8 (ix2 k n))
          (fun n => x9 (ix1 n)) (fun k n => x10 (ix2 k n)) (fun n => x11 (ix1 n)) (fun k => x12 (ix2 k 0)) := by
  rw [KernelDnn.pay1_apply, KernelFm.pay2_apply]
  simp only [KernelDnn.pay3_apply, KernelDnn.pay4_apply]
  rfl

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The body's result block: every load reads a whole block, and the one store writes the whole output block. -/
theorem out_eq (x0 : Vec Ideal S1024x26 .f32) (x1 : Vec Ideal S1024x26x16 .f32) (x2 : Vec Ideal S1024x429 .f32)
    (x3 : Vec Ideal S1024x13 .f32) (x4 : Vec Ideal S13x1 .f32) (x5 : Vec Ideal S1 .f32) (x6 : Vec Ideal S429x400 .bf16)
    (x7 : Vec Ideal S400 .f32) (x8 : Vec Ideal S400x400 .bf16) (x9 : Vec Ideal S400 .f32) (x10 : Vec Ideal S400x400 .bf16)
    (x11 : Vec Ideal S400 .f32) (x12 : Vec Ideal S400x1 .bf16) :
    out0_13 (F := Ideal) x0 x1 x2 x3 x4 x5 x6 x7 x8 x9 x10 x11 x12
      = k0_pay1 (F := Ideal) (k0_pay2 x0 x1 x3 x4) (k0_pay3 x2 x6 x7) (k0_pay4 x8) x9 x10 x11 x12 x5 := by
  unfold out0_13
  rw [View.canon_unit_zero hz2]
  simp only [View.ld_unit_zero (S := S1024x26) hz2, View.ld_unit_zero (S := S1024x26x16) hz3, View.ld_unit_zero (S := S1024x429) hz2,
    View.ld_unit_zero (S := S1024x13) hz2, View.ld_unit_zero (S := S13x1) hz2, View.ld_unit_zero (S := S1) hz1,
    View.ld_unit_zero (S := S429x400) hz2, View.ld_unit_zero (S := S400) hz1, View.ld_unit_zero (S := S400x400) hz2,
    View.ld_unit_zero (S := S400x1) hz2]

/-! ## Where a block's rows sit in the arrays -/

/-- The printed index maps over the sixteen grid points: the four batch-major inputs and the output move together
    along the batch axis, block `t` at point `t`; every weight window stays at block zero. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0
    ∧ win0_10.index t (0 : Fin 2) = 0 ∧ win0_10.index t (1 : Fin 2) = 0
    ∧ win0_11.index t (0 : Fin 1) = 0
    ∧ win0_12.index t (0 : Fin 2) = 0 ∧ win0_12.index t (1 : Fin 2) = 0
    ∧ win0_13.index t (0 : Fin 2) = t.val ∧ win0_13.index t (1 : Fin 2) = 0 :=
  (by decide +kernel : ∀ t : Fin grid0.N, _)

/-- The batch row of the whole arrays that row `p` of point `t`'s block is: `1024 t + p`. -/
def row (t : Fin cfg0.N) (p : Fin 1024) : Fin 16384 :=
  ⟨t.val * 1024 + p.val, by have h : t.val < cfg0.N := t.isLt; have hN : cfg0.N = 16 := N_0; have := p.isLt; omega⟩

theorem read0 (A0 : S16384x26.Idx → EReal) (t : Fin cfg0.N) (p : Fin 1024) (j : Fin 26) :
    (((cfg0.win 0).blk t).view.read (Elt Ideal) A0 : Vec Ideal S1024x26 .f32) (ix2 p j) = A0 (ix2 (row t p) j) := by
  obtain ⟨e0, e1, -⟩ := idx_facts t
  rw [View.read_apply]
  show A0 _ = A0 _
  refine congrArg A0 (funext fun a => Fin.ext ?_)
  match a with
  | ⟨0, _⟩ => show win0_0.index t (0 : Fin 2) * 1024 + 1 * p.val = t.val * 1024 + p.val; omega
  | ⟨1, _⟩ => show win0_0.index t (1 : Fin 2) * 26 + 1 * j.val = j.val; omega

theorem read1 (A1 : S16384x26x16.Idx → EReal) (t : Fin cfg0.N) (p : Fin 1024) (j : Fin 26) (e : Fin 16) :
    (((cfg0.win 1).blk t).view.read (Elt Ideal) A1 : Vec Ideal S1024x26x16 .f32) (ix3 p j e) = A1 (ix3 (row t p) j e) := by
  obtain ⟨-, -, e0, e1, e2, -⟩ := idx_facts t
  rw [View.read_apply]
  show A1 _ = A1 _
  refine congrArg A1 (funext fun a => Fin.ext ?_)
  match a with
  | ⟨0, _⟩ => show win0_1.index t (0 : Fin 3) * 1024 + 1 * p.val = t.val * 1024 + p.val; omega
  | ⟨1, _⟩ => show win0_1.index t (1 : Fin 3) * 26 + 1 * j.val = j.val; omega
  | ⟨2, _⟩ => show win0_1.index t (2 : Fin 3) * 16 + 1 * e.val = e.val; omega

theorem read2 (A2 : S16384x429.Idx → EReal) (t : Fin cfg0.N) (p : Fin 1024) (k : Fin 429) :
    (((cfg0.win 2).blk t).view.read (Elt Ideal) A2 : Vec Ideal S1024x429 .f32) (ix2 p k) = A2 (ix2 (row t p) k) := by
  obtain ⟨-, -, -, -, -, e0, e1, -⟩ := idx_facts t
  rw [View.read_apply]
  show A2 _ = A2 _
  refine congrArg A2 (funext fun a => Fin.ext ?_)
  match a with
  | ⟨0, _⟩ => show win0_2.index t (0 : Fin 2) * 1024 + 1 * p.val = t.val * 1024 + p.val; omega
  | ⟨1, _⟩ => show win0_2.index t (1 : Fin 2) * 429 + 1 * k.val = k.val; omega

theorem read3 (A3 : S16384x13.Idx → EReal) (t : Fin cfg0.N) (p : Fin 1024) (k : Fin 13) :
    (((cfg0.win 3).blk t).view.read (Elt Ideal) A3 : Vec Ideal S1024x13 .f32) (ix2 p k) = A3 (ix2 (row t p) k) := by
  obtain ⟨-, -, -, -, -, -, -, e0, e1, -⟩ := idx_facts t
  rw [View.read_apply]
  show A3 _ = A3 _
  refine congrArg A3 (funext fun a => Fin.ext ?_)
  match a with
  | ⟨0, _⟩ => show win0_3.index t (0 : Fin 2) * 1024 + 1 * p.val = t.val * 1024 + p.val; omega
  | ⟨1, _⟩ => show win0_3.index t (1 : Fin 2) * 13 + 1 * k.val = k.val; omega

theorem read4 (A4 : S13x1.Idx → EReal) (t : Fin cfg0.N) :
    (((cfg0.win 4).blk t).view.read (Elt Ideal) A4 : Vec Ideal S13x1 .f32) = A4 := by
  obtain ⟨-, -, -, -, -, -, -, -, -, e0, e1, -⟩ := idx_facts t
  funext x
  rw [View.read_apply]
  show A4 _ = A4 _
  refine congrArg A4 (funext fun a => Fin.ext ?_)
  match a with
  | ⟨0, _⟩ => show win0_4.index t (0 : Fin 2) * 13 + 1 * (x 0).val = (x 0).val; omega
  | ⟨1, _⟩ => show win0_4.index t (1 : Fin 2) * 1 + 1 * (x 1).val = (x 1).val; omega

theorem read5 (A5 : S1.Idx → EReal) (t : Fin cfg0.N) :
    (((cfg0.win 5).blk t).view.read (Elt Ideal) A5 : Vec Ideal S1 .f32) = A5 := by
  obtain ⟨-, -, -, -, -, -, -, -, -, -, -, e0, -⟩ := idx_facts t
  funext x
  rw [View.read_apply]
  show A5 _ = A5 _
  refine congrArg A5 (funext fun a => Fin.ext ?_)
  match a with
  | ⟨0, _⟩ => show win0_5.index t (0 : Fin 1) * 1 + 1 * (x 0).val = (x 0).val; omega

theorem read6 (A6 : S429x400.Idx → EReal) (t : Fin cfg0.N) :
    (((cfg0.win 6).blk t).view.read (Elt Ideal) A6 : Vec Ideal S429x400 .bf16) = A6 := by
  obtain ⟨-, -, -, -, -, -, -, -, -, -, -, -, e0, e1, -⟩ := idx_facts t
  funext x
  rw [View.read_apply]
  show A6 _ = A6 _
  refine congrArg A6 (funext fun a => Fin.ext ?_)
  match a with
  | ⟨0, _⟩ => show win0_6.index t (0 : Fin 2) * 429 + 1 * (x 0).val = (x 0).val; omega
  | ⟨1, _⟩ => show win0_6.index t (1 : Fin 2) * 400 + 1 * (x 1).val = (x 1).val; omega

theorem read7 (A7 : S400.Idx → EReal) (t : Fin cfg0.N) :
    (((cfg0.win 7).blk t).view.read (Elt Ideal) A7 : Vec Ideal S400 .f32) = A7 := by
  obtain ⟨-, -, -, -, -, -, -, -, -, -, -, -, -, -, e0, -⟩ := idx_facts t
  funext x
  rw [View.read_apply]
  show A7 _ = A7 _
  refine congrArg A7 (funext fun a => Fin.ext ?_)
  match a with
  | ⟨0, _⟩ => show win0_7.index t (0 : Fin 1) * 400 + 1 * (x 0).val = (x 0).val; omega

theorem read8 (A8 : S400x400.Idx → EReal) (t : Fin cfg0.N) :
    (((cfg0.win 8).blk t).view.read (Elt Ideal) A8 : Vec Ideal S400x400 .bf16) = A8 := by
  obtain ⟨-, -, -, -, -, -, -, -, -, -, -, -, -, -, -, e0, e1, -⟩ := idx_facts t
  funext x
  rw [View.read_apply]
  show A8 _ = A8 _
  refine congrArg A8 (funext fun a => Fin.ext ?_)
  match a with
  | ⟨0, _⟩ => show win0_8.index t (0 : Fin 2) * 400 + 1 * (x 0).val = (x 0).val; omega
  | ⟨1, _⟩ => show win0_8.index t (1 : Fin 2) * 400 + 1 * (x 1).val = (x 1).val; omega

theorem read9 (A9 : S400.Idx → EReal) (t : Fin cfg0.N) :
    (((cfg0.win 9).blk t).view.read (Elt Ideal) A9 : Vec Ideal S400 .f32) = A9 := by
  obtain ⟨-, -, -, -, -, -, -, -, -, -, -, -, -, -, -, -, -, e0, -⟩ := idx_facts t
  funext x
  rw [View.read_apply]
  show A9 _ = A9 _
  refine congrArg A9 (funext fun a => Fin.ext ?_)
  match a with
  | ⟨0, _⟩ => show win0_9.index t (0 : Fin 1) * 400 + 1 * (x 0).val = (x 0).val; omega

theorem read10 (A10 : S400x400.Idx → EReal) (t : Fin cfg0.N) :
    (((cfg0.win 10).blk t).view.read (Elt Ideal) A10 : Vec Ideal S400x400 .bf16) = A10 := by
  obtain ⟨-, -, -, -, -, -, -, -, -, -, -, -, -, -, -, -, -, -, e0, e1, -⟩ := idx_facts t
  funext x
  rw [View.read_apply]
  show A10 _ = A10 _
  refine congrArg A10 (funext fun a => Fin.ext ?_)
  match a with
  | ⟨0, _⟩ => show win0_10.index t (0 : Fin 2) * 400 + 1 * (x 0).val = (x 0).val; omega
  | ⟨1, _⟩ => show win0_10.index t (1 : Fin 2) * 400 + 1 * (x 1).val = (x 1).val; omega

theorem read11 (A11 : S400.Idx → EReal) (t : Fin cfg0.N) :
    (((cfg0.win 11).blk t).view.read (Elt Ideal) A11 : Vec Ideal S400 .f32) = A11 := by
  obtain ⟨-, -, -, -, -, -, -, -, -, -, -, -, -, -, -, -, -, -, -, -, e0, -⟩ := idx_facts t
  funext x
  rw [View.read_apply]
  show A11 _ = A11 _
  refine congrArg A11 (funext fun a => Fin.ext ?_)
  match a with
  | ⟨0, _⟩ => show win0_11.index t (0 : Fin 1) * 400 + 1 * (x 0).val = (x 0).val; omega

theorem read12 (A12 : S400x1.Idx → EReal) (t : Fin cfg0.N) :
    (((cfg0.win 12).blk t).view.read (Elt Ideal) A12 : Vec Ideal S400x1 .bf16) = A12 := by
  obtain ⟨-, -, -, -, -, -, -, -, -, -, -, -, -, -, -, -, -, -, -, -, -, e0, e1, -⟩ := idx_facts t
  funext x
  rw [View.read_apply]
  show A12 _ = A12 _
  refine congrArg A12 (funext fun a => Fin.ext ?_)
  match a with
  | ⟨0, _⟩ => show win0_12.index t (0 : Fin 2) * 400 + 1 * (x 0).val = (x 0).val; omega
  | ⟨1, _⟩ => show win0_12.index t (1 : Fin 2) * 1 + 1 * (x 1).val = (x 1).val; omega

/-- Row `p` of point `t`'s output block sits at row `1024 t + p` of the result array. -/
theorem emb13 (t : Fin cfg0.N) (p : Fin 1024) :
    ((cfg0.win 13).blk t).view.emb (ix2 p (0 : Fin 1)) = (ix2 (row t p) (0 : Fin 1) : S16384x1.Idx) := by
  obtain ⟨-, -, -, -, -, -, -, -, -, -, -, -, -, -, -, -, -, -, -, -, -, -, -, e0, e1⟩ := idx_facts t
  refine funext fun a => Fin.ext ?_
  match a with
  | ⟨0, _⟩ => show win0_13.index t (0 : Fin 2) * 1024 + 1 * p.val = t.val * 1024 + p.val; omega
  | ⟨1, _⟩ => show win0_13.index t (1 : Fin 2) * 1 + 1 * 0 = 0; omega

/-! ## One point's write-back, for any arrays -/

/-- POINT `t`'S BLOCK of the result, from blocks read off ANY arrays: the body's result on the blocks the sixteen-point
    pipeline cuts out of the arrays `A0 … A12` is block `t` of `G A0 … A12`. -/
theorem tile (A0 : S16384x26.Idx → EReal) (A1 : S16384x26x16.Idx → EReal) (A2 : S16384x429.Idx → EReal)
    (A3 : S16384x13.Idx → EReal) (A4 : S13x1.Idx → EReal) (A5 : S1.Idx → EReal) (A6 : S429x400.Idx → EReal)
    (A7 : S400.Idx → EReal) (A8 : S400x400.Idx → EReal) (A9 : S400.Idx → EReal) (A10 : S400x400.Idx → EReal)
    (A11 : S400.Idx → EReal) (A12 : S400x1.Idx → EReal) (t : Fin cfg0.N) :
    (cfg0.win 13).cut (grid0.coords t)
        (out0_13 (F := Ideal) (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4) (((cfg0.win 5).blk t).view.read (Elt Ideal) A5)
          (((cfg0.win 6).blk t).view.read (Elt Ideal) A6) (((cfg0.win 7).blk t).view.read (Elt Ideal) A7)
          (((cfg0.win 8).blk t).view.read (Elt Ideal) A8) (((cfg0.win 9).blk t).view.read (Elt Ideal) A9)
          (((cfg0.win 10).blk t).view.read (Elt Ideal) A10) (((cfg0.win 11).blk t).view.read (Elt Ideal) A11)
          (((cfg0.win 12).blk t).view.read (Elt Ideal) A12))
      = ((cfg0.win 13).blk t).view.read (Elt Ideal) (G A0 A1 A2 A3 A4 A5 A6 A7 A8 A9 A10 A11 A12) := by
  rw [out_eq, read4, read5, read6, read7, read8, read9, read10, read11, read12]
  funext y
  show k0_pay1 (F := Ideal) (k0_pay2 (((cfg0.win 0).blk t).view.read (Elt Ideal) A0) (((cfg0.win 1).blk t).view.read (Elt Ideal) A1)
          (((cfg0.win 3).blk t).view.read (Elt Ideal) A3) A4)
        (k0_pay3 (((cfg0.win 2).blk t).view.read (Elt Ideal) A2) A6 A7) (k0_pay4 A8) A9 A10 A11 A12 A5 y
      = G A0 A1 A2 A3 A4 A5 A6 A7 A8 A9 A10 A11 A12 (((cfg0.win 13).blk t).view.emb y)
  obtain ⟨p, q, rfl⟩ : ∃ (p : Fin 1024) (q : Fin 1), y = ix2 p q := ⟨y 0, y 1, eq_ix2 y⟩
  obtain rfl : q = 0 := Subsingleton.elim _ _
  refine (pay_row (((cfg0.win 0).blk t).view.read (Elt Ideal) A0) (((cfg0.win 1).blk t).view.read (Elt Ideal) A1)
    (((cfg0.win 2).blk t).view.read (Elt Ideal) A2) (((cfg0.win 3).blk t).view.read (Elt Ideal) A3) A4 A5 A6 A7 A8 A9 A10 A11 A12 p).trans ?_
  rw [emb13 t p]
  have e0 : (fun j : Fin 26 => (((cfg0.win 0).blk t).view.read (Elt Ideal) A0 : Vec Ideal S1024x26 .f32) (ix2 p j))
      = fun j => A0 (ix2 (row t p) j) := funext fun j => read0 A0 t p j
  have e1 : (fun (j : Fin 26) (e : Fin 16) => (((cfg0.win 1).blk t).view.read (Elt Ideal) A1 : Vec Ideal S1024x26x16 .f32) (ix3 p j e))
      = fun j e => A1 (ix3 (row t p) j e) := funext fun j => funext fun e => read1 A1 t p j e
  have e2 : (fun k : Fin 429 => (((cfg0.win 2).blk t).view.read (Elt Ideal) A2 : Vec Ideal S1024x429 .f32) (ix2 p k))
      = fun k => A2 (ix2 (row t p) k) := funext fun k => read2 A2 t p k
  have e3 : (fun k : Fin 13 => (((cfg0.win 3).blk t).view.read (Elt Ideal) A3 : Vec Ideal S1024x13 .f32) (ix2 p k))
      = fun k => A3 (ix2 (row t p) k) := funext fun k => read3 A3 t p k
  rw [e0, e1, e2, e3]
  rfl

/-! ## The arrays the region finds, and the whole result -/

variable (m : (ℓ : Loc nD τ sig) → Buf (Elt Ideal) ℓ) (ρ : Dev nD → PrngReg)

/-- The result array as the region leaves it: `G` of the arrays the region finds. -/
def Gm (c : Dev nD) : S16384x1.Idx → EReal :=
  G (V m c main_v17) (V m c main_v32) (V m c main_v34) (V m c main_arg1) (V m c main_arg4) (V m c main_arg5)
    (V m c main_v35) (V m c main_arg7) (V m c main_v36) (V m c main_arg9) (V m c main_v37) (V m c main_arg11) (V m c main_v38)

set_option maxHeartbeats 400000 in
/-- WHAT POINT `t` WRITES BACK is block `t` of the result function of the arrays the region finds. -/
theorem flushed_eq (c : Dev nD) (t : Fin cfg0.N) :
    (dats m 0 c).flushed 13 t = ((cfg0.win 13).blk t).view.read (Elt Ideal) (Gm m c) := by
  rw [flushed13]
  exact tile (V m c main_v17) (V m c main_v32) (V m c main_v34) (V m c main_arg1) (V m c main_arg4) (V m c main_arg5)
    (V m c main_v35) (V m c main_arg7) (V m c main_v36) (V m c main_arg9) (V m c main_v37) (V m c main_arg11) (V m c main_v38) t

/-- An index of the result array is in point `t`'s block iff its row lies in `[1024 t, 1024 t + 1024)`. -/
theorem mem_blk (t : Fin cfg0.N) (i : S16384x1.Idx) :
    i ∈ ((cfg0.win 13).blk t).view.set ↔ ∀ a : Fin 2, win0_13.index t a * S1024x1.size a ≤ (i a).val ∧ (i a).val < win0_13.index t a * S1024x1.size a + S1024x1.size a := by
  show i ∈ ((View.whole main_v39).slice (win0_13.rect t)).set ↔ _
  rw [View.set_slice_whole, Rect.mem_set_unit]
  exact Iff.rfl

/-- Every index of the result array is in some point's block: row `r` is in block `r / 1024`. -/
theorem cover (i : S16384x1.Idx) : ∃ t : Fin cfg0.N, (cfg0.win 13).flush t = true ∧ i ∈ ((cfg0.win 13).blk t).view.set := by
  have hN : cfg0.N = 16 := N_0
  have hi0 : (i 0).val < 16384 := (i 0).isLt
  have hi1 : (i 1).val < 1 := (i 1).isLt
  refine ⟨⟨(i 0).val / 1024, by omega⟩, flush0_13 _, ?_⟩
  rw [mem_blk]
  obtain ⟨-, -, -, -, -, -, -, -, -, -, -, -, -, -, -, -, -, -, -, -, -, -, -, e0, e1⟩ := idx_facts ⟨(i 0).val / 1024, by omega⟩
  intro a
  match a with
  | ⟨0, _⟩ => show win0_13.index _ (0 : Fin 2) * 1024 ≤ (i 0).val ∧ (i 0).val < win0_13.index _ (0 : Fin 2) * 1024 + 1024; rw [e0]; show (i 0).val / 1024 * 1024 ≤ (i 0).val ∧ (i 0).val < (i 0).val / 1024 * 1024 + 1024; omega
  | ⟨1, _⟩ => show win0_13.index _ (1 : Fin 2) * 1 ≤ (i 1).val ∧ (i 1).val < win0_13.index _ (1 : Fin 2) * 1 + 1; rw [e1]; omega

/-- THE RESULT ARRAY after the run. -/
theorem final (c : Dev nD) : (dats m 0 c).arrAt 13 cfg0.N = Gm m c :=
  (dats m 0 c).arrAt_eq_of_cover 13 (Gm m c) (fun t _ => flushed_eq m c t) cover

/-- The kernel's run, read: the result array ends at `G` of the arrays the region finds, the arguments unchanged. -/
theorem run : θ_run defs (onTc (τ := τ) (main (F := Ideal))) ⟨m, fun _ => 0, ρ⟩ fun r => ∀ c : Dev nD,
      r.2.mem ((c : Thread nD τ).loc main_v39) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final m c), (h c).2⟩) (Cert.KernelIdeal.Value.run_blocks m ρ)

end Cert.FmDnn.Blocks

end
-- ==== Proof.RefRow.lean ====
/-
  The reference program, read one output row at a time, computes the specification's row function.

  The reference's result array [16384, 1] is built by host operations from three gathered or joined arrays that stay
  closed here — the first-order embeddings [16384, 26], the second-order embeddings [16384, 26, 16] and the network
  input [16384, 429] — and from the dense features and the weights. Entry (r, 0) is read stage by stage:

    * the first-order term is the sum of row r of the first-order embeddings plus the dot product of row r of the
      dense features with the linear weights;
    * the cross term is one half times the sum over the 16 embedding coordinates of (the square of the sum over the
      26 fields, minus the sum over the fields of the squares);
    * each hidden layer at (r, n) is max (Σ_k previous(r, k) · W(k, n) + b(n)) 0, and the network's output at (r, 0)
      is Σ_k h₃(r, k) · W_out(k, 0);
    * the result is (first-order + cross) + network + bias.

  Every host sum starts from the constant 0, which is the additive zero of the extended reals, and every broadcast
  of a bias or of a constant reads the one entry it copies. No algebraic law is used: each stage is the definition
  of the corresponding piece of the specification, so nothing depends on the inputs being finite.
-/
import proofs.«175087_j67491116089396_1_alg».proof.Proof.Gen.ReferenceIdeal.Read
import proofs.«175087_j67491116089396_1_alg».proof.Proof.Whole
import Idealize.ShloMosaic.Lib.ValueIdx
import Idealize.ShloMosaic.PureOps.Ideal.Laws

noncomputable section

namespace Cert.FmDnn.RefRow

open Idealize.ShloMosaic Idealize.ShloMosaic.ValueIdx Cert.ReferenceIdeal Cert.ReferenceIdeal.Read Cert.FmDnn

variable (x0 : (⟨S16384x26, .i32⟩ : BufTy).Contents (Elt Ideal)) (x1 : (⟨S16384x13, .f32⟩ : BufTy).Contents (Elt Ideal))
  (x2 : (⟨S26x100000x1, .f32⟩ : BufTy).Contents (Elt Ideal)) (x3 : (⟨S26x100000x16, .f32⟩ : BufTy).Contents (Elt Ideal))
  (x4 : (⟨S13x1, .f32⟩ : BufTy).Contents (Elt Ideal)) (x5 : (⟨S1, .f32⟩ : BufTy).Contents (Elt Ideal))
  (x6 : (⟨S429x400, .f32⟩ : BufTy).Contents (Elt Ideal)) (x7 : (⟨S400, .f32⟩ : BufTy).Contents (Elt Ideal))
  (x8 : (⟨S400x400, .f32⟩ : BufTy).Contents (Elt Ideal)) (x9 : (⟨S400, .f32⟩ : BufTy).Contents (Elt Ideal))
  (x10 : (⟨S400x400, .f32⟩ : BufTy).Contents (Elt Ideal)) (x11 : (⟨S400, .f32⟩ : BufTy).Contents (Elt Ideal))
  (x12 : (⟨S400x1, .f32⟩ : BufTy).Contents (Elt Ideal))

/-! ## The index maps of the reference's sums and products, at a row -/

/-- Summing row `r` of a [16384, 26] array: the `j`-th summand sits at `(r, j)`. -/
theorem idx18 (r : Fin 16384) (j : Fin 26) : idx_main_v18 (ix1 r) j = ix2 r j :=
  funext fun a => Fin.ext (by match a with | ⟨0, _⟩ => rfl | ⟨1, _⟩ => rfl)

/-- The column [16384, 1] made from a vector [16384] reads the vector at the row. -/
theorem idx19 (r : Fin 16384) : idx_main_v19 (ix2 r (0 : Fin 1)) = ix1 r :=
  funext fun a => Fin.ext (by match a with | ⟨0, _⟩ => rfl)

/-- The dense features times the linear weights: the left factor of the `k`-th product sits at `(r, k)`. -/
theorem lidx20 (r : Fin 16384) (k : Fin 13) : lidx_main_v20 (ix2 r (0 : Fin 1)) k = ix2 r k :=
  funext fun a => Fin.ext (by match a with | ⟨0, _⟩ => rfl | ⟨1, _⟩ => rfl)

/-- The dense features times the linear weights: the right factor of the `k`-th product sits at `(k, 0)`. -/
theorem ridx20 (r : Fin 16384) (k : Fin 13) : ridx_main_v20 (ix2 r (0 : Fin 1)) k = ix2 k (0 : Fin 1) :=
  funext fun a => Fin.ext (by match a with | ⟨0, _⟩ => rfl | ⟨1, _⟩ => rfl)

/-- Summing the 26 fields of a [16384, 26, 16] array at row `r`, coordinate `e`: the `j`-th summand sits at
    `(r, j, e)`. -/
theorem idx37 (r : Fin 16384) (e : Fin 16) (j : Fin 26) : idx_main_v37 (ix2 r e) j = ix3 r j e :=
  funext fun a => Fin.ext (by match a with | ⟨0, _⟩ => rfl | ⟨1, _⟩ => rfl | ⟨2, _⟩ => rfl)

/-- The same for the sum of the squares. -/
theorem idx40 (r : Fin 16384) (e : Fin 16) (j : Fin 26) : idx_main_v40 (ix2 r e) j = ix3 r j e :=
  funext fun a => Fin.ext (by match a with | ⟨0, _⟩ => rfl | ⟨1, _⟩ => rfl | ⟨2, _⟩ => rfl)

/-- Summing row `r` of a [16384, 16] array: the `e`-th summand sits at `(r, e)`. -/
theorem idx42 (r : Fin 16384) (e : Fin 16) : idx_main_v42 (ix1 r) e = ix2 r e :=
  funext fun a => Fin.ext (by match a with | ⟨0, _⟩ => rfl | ⟨1, _⟩ => rfl)

/-- The column made from the vector of cross terms reads the vector at the row. -/
theorem idx43 (r : Fin 16384) : idx_main_v43 (ix2 r (0 : Fin 1)) = ix1 r :=
  funext fun a => Fin.ext (by match a with | ⟨0, _⟩ => rfl)

/-- First layer's product: the left factor sits at `(r, k)`. -/
theorem lidx49 (r : Fin 16384) (n : Fin 400) (k : Fin 429) : lidx_main_v49 (ix2 r n) k = ix2 r k :=
  funext fun a => Fin.ext (by match a with | ⟨0, _⟩ => rfl | ⟨1, _⟩ => rfl)

/-- First layer's product: the right factor sits at `(k, n)`. -/
theorem ridx49 (r : Fin 16384) (n : Fin 400) (k : Fin 429) : ridx_main_v49 (ix2 r n) k = ix2 k n :=
  funext fun a => Fin.ext (by match a with | ⟨0, _⟩ => rfl | ⟨1, _⟩ => rfl)

/-- Second layer's product: the left factor sits at `(r, k)`. -/
theorem lidx54 (r : Fin 16384) (n : Fin 400) (k : Fin 400) : lidx_main_v54 (ix2 r n) k = ix2 r k :=
  funext fun a => Fin.ext (by match a with | ⟨0, _⟩ => rfl | ⟨1, _⟩ => rfl)

/-- Second layer's product: the right factor sits at `(k, n)`. -/
theorem ridx54 (r : Fin 16384) (n : Fin 400) (k : Fin 400) : ridx_main_v54 (ix2 r n) k = ix2 k n :=
  funext fun a => Fin.ext (by match a with | ⟨0, _⟩ => rfl | ⟨1, _⟩ => rfl)

/-- Third layer's product: the left factor sits at `(r, k)`. -/
theorem lidx59 (r : Fin 16384) (n : Fin 400) (k : Fin 400) : lidx_main_v59 (ix2 r n) k = ix2 r k :=
  funext fun a => Fin.ext (by match a with | ⟨0, _⟩ => rfl | ⟨1, _⟩ => rfl)

/-- Third layer's product: the right factor sits at `(k, n)`. -/
theorem ridx59 (r : Fin 16384) (n : Fin 400) (k : Fin 400) : ridx_main_v59 (ix2 r n) k = ix2 k n :=
  funext fun a => Fin.ext (by match a with | ⟨0, _⟩ => rfl | ⟨1, _⟩ => rfl)

/-- Output product: the left factor sits at `(r, k)`. -/
theorem lidx64 (r : Fin 16384) (k : Fin 400) : lidx_main_v64 (ix2 r (0 : Fin 1)) k = ix2 r k :=
  funext fun a => Fin.ext (by match a with | ⟨0, _⟩ => rfl | ⟨1, _⟩ => rfl)

/-- Output product: the right factor sits at `(k, 0)`. -/
theorem ridx64 (r : Fin 16384) (k : Fin 400) : ridx_main_v64 (ix2 r (0 : Fin 1)) k = ix2 k (0 : Fin 1) :=
  funext fun a => Fin.ext (by match a with | ⟨0, _⟩ => rfl | ⟨1, _⟩ => rfl)

/-! ## The factorization-machine part -/

/-- The sum of row `r` of the first-order embeddings, as the column entry `(r, 0)`. -/
theorem firstOrder_row (r : Fin 16384) :
    val_main_v19 (F := Ideal) x0 x2 (ix2 r (0 : Fin 1)) = ∑ j : Fin 26, val_main_v17 (F := Ideal) x0 x2 (ix2 r j) := by
  rw [val_main_v19_apply, idx19, val_main_v18_apply, val_main_cst_apply]
  simp only [idx18, Ideal.ofBits_def, Ideal.ofBits_zero_f32, zero_add]

/-- Row `r` of the dense features times the linear weights. -/
theorem dense_row (r : Fin 16384) :
    val_main_v20 (F := Ideal) x1 x4 (ix2 r (0 : Fin 1)) = ∑ k : Fin 13, x1 (ix2 r k) * x4 (ix2 k (0 : Fin 1)) := by
  rw [val_main_v20_apply]
  simp only [lidx20, ridx20]

/-- The sum over the 26 fields of the second-order embeddings at row `r`, coordinate `e`. -/
theorem fieldSum_row (r : Fin 16384) (e : Fin 16) :
    val_main_v37 (F := Ideal) x0 x3 (ix2 r e) = ∑ j : Fin 26, val_main_v36 (F := Ideal) x0 x3 (ix3 r j e) := by
  rw [val_main_v37_apply, val_main_cst_7_apply]
  simp only [idx37, Ideal.ofBits_def, Ideal.ofBits_zero_f32, zero_add]

/-- The sum over the 26 fields of the squared second-order embeddings at row `r`, coordinate `e`. -/
theorem fieldSqSum_row (r : Fin 16384) (e : Fin 16) :
    val_main_v40 (F := Ideal) x0 x3 (ix2 r e)
      = ∑ j : Fin 26, val_main_v36 (F := Ideal) x0 x3 (ix3 r j e) * val_main_v36 (F := Ideal) x0 x3 (ix3 r j e) := by
  rw [val_main_v40_apply, val_main_cst_8_apply]
  simp only [idx40, val_main_v39_apply, Ideal.mulf_def, Ideal.ofBits_def, Ideal.ofBits_zero_f32, zero_add]

/-- The cross term of row `r` before its factor one half: the sum over the coordinates of the square of the field
    sum minus the sum of the squares. -/
theorem cross_row (r : Fin 16384) :
    val_main_v43 (F := Ideal) x0 x3 (ix2 r (0 : Fin 1))
      = ∑ e : Fin 16, ((∑ j : Fin 26, val_main_v36 (F := Ideal) x0 x3 (ix3 r j e))
            * (∑ j : Fin 26, val_main_v36 (F := Ideal) x0 x3 (ix3 r j e))
          - ∑ j : Fin 26, val_main_v36 (F := Ideal) x0 x3 (ix3 r j e) * val_main_v36 (F := Ideal) x0 x3 (ix3 r j e)) := by
  rw [val_main_v43_apply, idx43, val_main_v42_apply, val_main_cst_9_apply]
  simp only [idx42, val_main_v41_apply, val_main_v38_apply, fieldSum_row, fieldSqSum_row, Ideal.subf_def, Ideal.mulf_def,
    Ideal.ofBits_def, Ideal.ofBits_zero_f32, zero_add]

/-- The factorization-machine part of the reference at `(r, 0)` is the specification's. -/
theorem fm_row (r : Fin 16384) :
    val_main_v46 (F := Ideal) x0 x1 x2 x3 x4 (ix2 r (0 : Fin 1))
      = fmPart (fun j => val_main_v17 (F := Ideal) x0 x2 (ix2 r j)) (fun j e => val_main_v36 (F := Ideal) x0 x3 (ix3 r j e))
          (fun k => x1 (ix2 r k)) (fun k => x4 (ix2 k (0 : Fin 1))) := by
  rw [val_main_v46_apply, val_main_v21_apply, val_main_v45_apply, firstOrder_row, dense_row, cross_row, val_main_v44_apply,
    val_main_cst_10_apply]
  rfl

/-! ## The network -/

/-- The zero a ReLU compares with (first layer). -/
theorem relu0_zero (i : S16384x400.Idx) : val_main_call0_v0 (F := Ideal) i = 0 := by
  rw [val_main_call0_v0_apply, val_main_call0_cst_apply, Ideal.ofBits_def, Ideal.ofBits_zero_f32]

/-- The zero a ReLU compares with (second layer). -/
theorem relu1_zero (i : S16384x400.Idx) : val_main_call1_v0 (F := Ideal) i = 0 := by
  rw [val_main_call1_v0_apply, val_main_call1_cst_apply, Ideal.ofBits_def, Ideal.ofBits_zero_f32]

/-- The zero a ReLU compares with (third layer). -/
theorem relu2_zero (i : S16384x400.Idx) : val_main_call2_v0 (F := Ideal) i = 0 := by
  rw [val_main_call2_v0_apply, val_main_call2_cst_apply, Ideal.ofBits_def, Ideal.ofBits_zero_f32]

/-- The first layer's bias, spread over the rows, at `(r, n)` is its entry `n`. -/
theorem bias0_row (r : Fin 16384) (n : Fin 400) : val_main_v51 (F := Ideal) x7 (ix2 r n) = x7 (ix1 n) := by
  rw [val_main_v51_apply, val_main_v50_apply]
  exact congrArg x7 (funext fun a => Fin.ext (by match a with | ⟨0, _⟩ => rfl))

/-- The second layer's bias at `(r, n)` is its entry `n`. -/
theorem bias1_row (r : Fin 16384) (n : Fin 400) : val_main_v56 (F := Ideal) x9 (ix2 r n) = x9 (ix1 n) := by
  rw [val_main_v56_apply, val_main_v55_apply]
  exact congrArg x9 (funext fun a => Fin.ext (by match a with | ⟨0, _⟩ => rfl))

/-- The third layer's bias at `(r, n)` is its entry `n`. -/
theorem bias2_row (r : Fin 16384) (n : Fin 400) : val_main_v61 (F := Ideal) x11 (ix2 r n) = x11 (ix1 n) := by
  rw [val_main_v61_apply, val_main_v60_apply]
  exact congrArg x11 (funext fun a => Fin.ext (by match a with | ⟨0, _⟩ => rfl))

/-- The first hidden layer at `(r, n)`: one dense layer with ReLU on row `r` of the network input. -/
theorem hidden1_row (r : Fin 16384) (n : Fin 400) :
    val_main_v53 (F := Ideal) x0 x1 x3 x6 x7 (ix2 r n)
      = layer (fun k => val_main_v48 (F := Ideal) x0 x1 x3 (ix2 r k)) (fun k n => x6 (ix2 k n)) (fun n => x7 (ix1 n)) n := by
  rw [val_main_v53_apply, val_main_v52_apply, val_main_v49_apply, bias0_row, relu0_zero]
  simp only [lidx49, ridx49]
  rfl

/-- The second hidden layer at `(r, n)`. -/
theorem hidden2_row (r : Fin 16384) (n : Fin 400) :
    val_main_v58 (F := Ideal) x0 x1 x3 x6 x7 x8 x9 (ix2 r n)
      = layer (layer (fun k => val_main_v48 (F := Ideal) x0 x1 x3 (ix2 r k)) (fun k n => x6 (ix2 k n)) (fun n => x7 (ix1 n)))
          (fun k n => x8 (ix2 k n)) (fun n => x9 (ix1 n)) n := by
  rw [val_main_v58_apply, val_main_v57_apply, val_main_v54_apply, bias1_row, relu1_zero]
  simp only [lidx54, ridx54, hidden1_row]
  rfl

/-- The third hidden layer at `(r, n)`. -/
theorem hidden3_row (r : Fin 16384) (n : Fin 400) :
    val_main_v63 (F := Ideal) x0 x1 x3 x6 x7 x8 x9 x10 x11 (ix2 r n)
      = layer (layer (layer (fun k => val_main_v48 (F := Ideal) x0 x1 x3 (ix2 r k)) (fun k n => x6 (ix2 k n)) (fun n => x7 (ix1 n)))
            (fun k n => x8 (ix2 k n)) (fun n => x9 (ix1 n)))
          (fun k n => x10 (ix2 k n)) (fun n => x11 (ix1 n)) n := by
  rw [val_main_v63_apply, val_main_v62_apply, val_main_v59_apply, bias2_row, relu2_zero]
  simp only [lidx59, ridx59, hidden2_row]
  rfl

/-- The network's output at `(r, 0)` is the specification's tail after the first layer. -/
theorem dnn_row (r : Fin 16384) :
    val_main_v64 (F := Ideal) x0 x1 x3 x6 x7 x8 x9 x10 x11 x12 (ix2 r (0 : Fin 1))
      = dnnTail (layer (fun k => val_main_v48 (F := Ideal) x0 x1 x3 (ix2 r k)) (fun k n => x6 (ix2 k n)) (fun n => x7 (ix1 n)))
          (fun k n => x8 (ix2 k n)) (fun n => x9 (ix1 n)) (fun k n => x10 (ix2 k n)) (fun n => x11 (ix1 n))
          (fun k => x12 (ix2 k (0 : Fin 1))) := by
  rw [val_main_v64_apply]
  simp only [lidx64, ridx64, hidden3_row]
  rfl

/-- The bias, spread over the rows as a column, at `(r, 0)` is its one entry. -/
theorem bias_row (r : Fin 16384) : val_main_v67 (F := Ideal) x5 (ix2 r (0 : Fin 1)) = x5 (ix1 (0 : Fin 1)) := by
  rw [val_main_v67_apply, val_main_v66_apply]
  exact congrArg x5 (funext fun a => Fin.ext (by match a with | ⟨0, _⟩ => rfl))

/-! ## The result -/

/-- Entry `(r, 0)` of the reference's result is the row function of row `r` of the first-order embeddings, the
    second-order embeddings, the network input and the dense features, and of the weights. -/
theorem ref_row (r : Fin 16384) :
    val_main_v68 (F := Ideal) x0 x1 x2 x3 x4 x5 x6 x7 x8 x9 x10 x11 x12 (ix2 r 0)
      = rowOut (fun j => val_main_v17 (F := Ideal) x0 x2 (ix2 r j)) (fun j e => val_main_v36 (F := Ideal) x0 x3 (ix3 r j e))
          (fun k => val_main_v48 (F := Ideal) x0 x1 x3 (ix2 r k)) (fun k => x1 (ix2 r k)) (fun k => x4 (ix2 k 0)) (x5 (ix1 0))
          (fun k n => x6 (ix2 k n)) (fun n => x7 (ix1 n)) (fun k n => x8 (ix2 k n)) (fun n => x9 (ix1 n))
          (fun k n => x10 (ix2 k n)) (fun n => x11 (ix1 n)) (fun k => x12 (ix2 k 0)) := by
  rw [val_main_v68_apply, val_main_v65_apply, fm_row, dnn_row, bias_row]
  rfl

/-- The reference's whole result array is the array of row functions. -/
theorem ref_whole :
    val_main_v68 (F := Ideal) x0 x1 x2 x3 x4 x5 x6 x7 x8 x9 x10 x11 x12
      = G (val_main_v17 (F := Ideal) x0 x2) (val_main_v36 (F := Ideal) x0 x3) (val_main_v48 (F := Ideal) x0 x1 x3) x1 x4 x5 x6
          x7 x8 x9 x10 x11 x12 := by
  funext i
  obtain ⟨r, z, rfl⟩ : ∃ (r : Fin 16384) (z : Fin 1), i = ix2 r z := ⟨i 0, i 1, eq_ix2 i⟩
  obtain rfl : z = 0 := Subsingleton.elim _ _
  exact ref_row x0 x1 x2 x3 x4 x5 x6 x7 x8 x9 x10 x11 x12 r

end Cert.FmDnn.RefRow

end
-- ==== Proof.Glue.lean ====
/-
  What the host operations leave in the arrays the kernel's windows read.

  Before its one region the kernel's program prepares seven arrays from its arguments:

  * the first-order embeddings `e1[r, j] = emb1[j, idx(r, j), 0]` and the second-order embeddings
    `e2[r, j, ·] = emb2[j, idx(r, j), ·]`, gathered at the start indices `(j, X_sparse[r, j])` in which a
    negative entry has the table's extent added to it (and a negative feature number the number of features);
  * the network's input row `d[r, ·]`: the 26 × 16 second-order entries of row `r` laid out flat, followed by
    the row's 13 dense features;
  * the four weight matrices in a narrower float format. On the extended reals a change of float format is
    the identity, so each of these is the argument itself.

  The reference program builds the same three gathered arrays by the same operations in the same order, and
  its stages name them. So each equation below is read off operation by operation: the contents of a buffer
  after the host operations is the function of the operation that wrote it, applied to the contents of that
  operation's operands, down to the arguments; and the composed term is the reference's stage, the two texts
  differing only in the names of their shape facts.
-/
import proofs.«175087_j67491116089396_1_alg».proof.Proof.Gen.KernelIdeal.Frame
import proofs.«175087_j67491116089396_1_alg».proof.Proof.Gen.ReferenceIdeal.Read
import Idealize.ShloMosaic.Lib.StableHlo.Run
import Idealize.ShloMosaic.Lib.Pipeline.Value

noncomputable section

namespace Cert.FmDnn.Glue

open Idealize.ShloMosaic Idealize.ShloMosaic.TcCoe Idealize.SL.Sem Idealize.ShloMosaic.StableHlo

/-- Two arrays laid end to end along one axis, as a function of the two arrays alone: the evidence that the
    shapes fit is stated over the two shapes, not over the arrays. -/
def cat2 {α : Type} (t : Shape) (a : Fin t.rank) (s1 s2 : Shape) (h : Shape.Concatenates [s1, s2] t a)
    (x : s1.Idx → α) (y : s2.Idx → α) : t.Idx → α :=
  concatenate t a [⟨s1, x⟩, ⟨s2, y⟩] h

/-- A concatenation of two arrays is `cat2` of them. -/
theorem concatenate_pair {α : Type} (t : Shape) (a : Fin t.rank) (s1 s2 : Shape) (h : Shape.Concatenates [s1, s2] t a)
    (x : s1.Idx → α) (y : s2.Idx → α) :
    concatenate t a [⟨s1, x⟩, ⟨s2, y⟩] h = cat2 t a s1 s2 h x y := rfl

/-- Reads a buffer after a line of host operations: at the buffer an operation writes, the contents is the
    operation's function of its operands' contents; at any other buffer the operation changes nothing. A
    concatenation is read as `cat2`, so that the reading goes on into the two arrays it joins. -/
local macro "read_host" : tactic =>
  `(tactic| simp (disch := decide) only [after_cons, after_nil, concatenate_pair,
      nullary_result', unary_result', binary_result', ternary_result', reshape_result',
      nullary_result_ne', unary_result_ne', binary_result_ne', ternary_result_ne', reshape_result_ne'])

variable (m : (ℓ : Loc Cert.KernelIdeal.nD Cert.KernelIdeal.τ Cert.KernelIdeal.sig) → Buf (Elt Ideal) ℓ) (c : Dev Cert.KernelIdeal.nD)

/-! ## The gathered arrays -/

/-- The first-order embeddings the region finds are the reference's: `emb1` gathered at `(j, X_sparse[r, j])`
    with negative entries wrapped, as a 16384 × 26 array. -/
theorem V_e1 :
    Cert.KernelIdeal.Gen.V (F := Ideal) m c Cert.KernelIdeal.main_v17
      = Cert.ReferenceIdeal.Read.val_main_v17 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) := by
  dsimp only [Cert.KernelIdeal.Gen.V, Cert.KernelIdeal.Gen.hostOps0]
  read_host
  rfl

/-- The second-order embeddings the region finds are the reference's: `emb2` gathered at the same start
    indices, as a 16384 × 26 × 16 array. -/
theorem V_e2 :
    Cert.KernelIdeal.Gen.V (F := Ideal) m c Cert.KernelIdeal.main_v32
      = Cert.ReferenceIdeal.Read.val_main_v36 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) := by
  dsimp only [Cert.KernelIdeal.Gen.V, Cert.KernelIdeal.Gen.hostOps0]
  read_host
  rfl

/-- The network's input the region finds is the reference's: each row's second-order embeddings laid out flat
    (416 entries), followed by the row's 13 dense features. -/
theorem V_dnn :
    Cert.KernelIdeal.Gen.V (F := Ideal) m c Cert.KernelIdeal.main_v34
      = Cert.ReferenceIdeal.Read.val_main_v48 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) := by
  dsimp only [Cert.KernelIdeal.Gen.V, Cert.KernelIdeal.Gen.hostOps0]
  read_host
  rfl

/-! ## The weights: a change of float format is the identity on the extended reals -/

/-- The first layer's weights as the region finds them are the argument `W0`. -/
theorem V_w0 :
    (Cert.KernelIdeal.Gen.V (F := Ideal) m c Cert.KernelIdeal.main_v35 : Cert.KernelIdeal.S429x400.Idx → EReal)
      = (m ((c.tc : Thread Cert.KernelIdeal.nD Cert.KernelIdeal.τ).loc Cert.KernelIdeal.main_arg6) : Cert.KernelIdeal.S429x400.Idx → EReal) := by
  dsimp only [Cert.KernelIdeal.Gen.V, Cert.KernelIdeal.Gen.hostOps0]
  read_host
  rfl

/-- The second layer's weights as the region finds them are the argument `W1`. -/
theorem V_w1 :
    (Cert.KernelIdeal.Gen.V (F := Ideal) m c Cert.KernelIdeal.main_v36 : Cert.KernelIdeal.S400x400.Idx → EReal)
      = (m ((c.tc : Thread Cert.KernelIdeal.nD Cert.KernelIdeal.τ).loc Cert.KernelIdeal.main_arg8) : Cert.KernelIdeal.S400x400.Idx → EReal) := by
  dsimp only [Cert.KernelIdeal.Gen.V, Cert.KernelIdeal.Gen.hostOps0]
  read_host
  rfl

/-- The third layer's weights as the region finds them are the argument `W2`. -/
theorem V_w2 :
    (Cert.KernelIdeal.Gen.V (F := Ideal) m c Cert.KernelIdeal.main_v37 : Cert.KernelIdeal.S400x400.Idx → EReal)
      = (m ((c.tc : Thread Cert.KernelIdeal.nD Cert.KernelIdeal.τ).loc Cert.KernelIdeal.main_arg10) : Cert.KernelIdeal.S400x400.Idx → EReal) := by
  dsimp only [Cert.KernelIdeal.Gen.V, Cert.KernelIdeal.Gen.hostOps0]
  read_host
  rfl

/-- The output weights as the region finds them are the argument `W_out`. -/
theorem V_wo :
    (Cert.KernelIdeal.Gen.V (F := Ideal) m c Cert.KernelIdeal.main_v38 : Cert.KernelIdeal.S400x1.Idx → EReal)
      = (m ((c.tc : Thread Cert.KernelIdeal.nD Cert.KernelIdeal.τ).loc Cert.KernelIdeal.main_arg12) : Cert.KernelIdeal.S400x1.Idx → EReal) := by
  dsimp only [Cert.KernelIdeal.Gen.V, Cert.KernelIdeal.Gen.hostOps0]
  read_host
  rfl

end Cert.FmDnn.Glue

end
-- ==== Proof.Final.lean ====
/-
  The two result arrays are one array.

  The kernel's result is the whole-array function `G` of the thirteen arrays its region finds (`Blocks.final`).
  Three of them are written by host operations that are, operation for operation, the reference's own first lines
  — the first-order embeddings gathered from the table, the second-order embeddings, and the network input joined
  from the flattened second-order embeddings and the dense features — so they are the reference's stages of the same
  arguments; four are the weight matrices converted to a narrower float format, which on the extended reals is no
  change; the other six are arguments as launched. The reference's result is `G` of those same thirteen arrays
  (`RefRow.ref_whole`).
-/
import proofs.«175087_j67491116089396_1_alg».proof.Proof.Blocks
import proofs.«175087_j67491116089396_1_alg».proof.Proof.RefRow
import proofs.«175087_j67491116089396_1_alg».proof.Proof.Glue

noncomputable section

namespace Cert.FmDnn.Final

open Idealize.ShloMosaic Idealize.ShloMosaic.TcCoe Idealize.SL.Sem Cert.FmDnn

variable (m : (ℓ : Loc Cert.KernelIdeal.nD Cert.KernelIdeal.τ Cert.KernelIdeal.sig) → Buf (Elt Ideal) ℓ) (c : Dev Cert.KernelIdeal.nD)

/-- The kernel's result array is the reference's last stage of the same argument arrays: the arrays the region
    finds are the reference's own gathered and joined stages and the (unrounded) weights, and the reference's result
    is the same whole-array function of them. -/
theorem Gm_eq : Blocks.Gm m c
    = Cert.ReferenceIdeal.Read.val_main_v68 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
        (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) := by
  rw [RefRow.ref_whole]
  unfold Blocks.Gm
  rw [Glue.V_e1 m c, Glue.V_e2 m c, Glue.V_dnn m c, Cert.KernelIdeal.Gen.V_main_arg1 m c, Cert.KernelIdeal.Gen.V_main_arg4 m c, Cert.KernelIdeal.Gen.V_main_arg5 m c,
    Cert.KernelIdeal.Gen.V_main_arg7 m c, Cert.KernelIdeal.Gen.V_main_arg9 m c, Cert.KernelIdeal.Gen.V_main_arg11 m c]
  rw [Glue.V_w0 m c, Glue.V_w1 m c, Glue.V_w2 m c, Glue.V_wo m c]

end Cert.FmDnn.Final

end
-- ==== Proof.lean ====
/-
  The certificate: a factorization machine with a three-layer ReLU network, as a TPU kernel over a grid of sixteen
  batch blocks, against its plain reference.

  Both programs gather the same embedding rows with the same host operations. The kernel then computes, for each
  block of 1024 batch rows, the first-order sums, the second-order cross term ½ Σ_e ((Σ_j v)² − Σ_j v²), and the
  network (its matrix products taken in a narrower float format, which changes nothing on the extended reals); the
  reference does the same on all 16384 rows at once with host sums and products. On the extended reals a block-wise
  sum or product is the same finite sum as the whole-array one, so the two results agree entry by entry with no
  algebraic law beyond the definitions and no use of the inputs' finiteness.

  The modules: `Spec` (the row function), `Whole` (the whole-array function `G`), `KernelFm` and `KernelDnn` (the
  body's payloads read at an index), `Blocks` (from the sixteen write-backs to the whole result array), `RefRow`
  (the reference's stages read at an index), `Glue` (the arrays the region finds are the reference's stages),
  `Final` (the two results are one array). Here: the three frames, `preserves` (the idealization rewrote nothing)
  and `algebraic`.
-/
import proofs.«175087_j67491116089396_1_alg».proof.Defs
import proofs.«175087_j67491116089396_1_alg».proof.Proof.Gen.Kernel
import proofs.«175087_j67491116089396_1_alg».proof.Proof.Gen.Kernel.Skeleton
import proofs.«175087_j67491116089396_1_alg».proof.Proof.Gen.Kernel.Launch
import proofs.«175087_j67491116089396_1_alg».proof.Proof.Gen.Kernel.Points
import proofs.«175087_j67491116089396_1_alg».proof.Proof.Gen.Kernel.Frame
import proofs.«175087_j67491116089396_1_alg».proof.Proof.Gen.KernelIdeal
import proofs.«175087_j67491116089396_1_alg».proof.Proof.Gen.KernelIdeal.Skeleton
import proofs.«175087_j67491116089396_1_alg».proof.Proof.Gen.KernelIdeal.Launch
import proofs.«175087_j67491116089396_1_alg».proof.Proof.Gen.KernelIdeal.Points
import proofs.«175087_j67491116089396_1_alg».proof.Proof.Gen.KernelIdeal.Frame
import proofs.«175087_j67491116089396_1_alg».proof.Proof.Gen.ReferenceIdeal
import proofs.«175087_j67491116089396_1_alg».proof.Proof.Gen.Pre_finite_inputs
import proofs.«175087_j67491116089396_1_alg».proof.Proof.Gen.KernelIdeal.Value
import proofs.«175087_j67491116089396_1_alg».proof.Proof.Gen.ReferenceIdeal.Run
import proofs.«175087_j67491116089396_1_alg».proof.Proof.Gen.ReferenceIdeal.Read
import proofs.«175087_j67491116089396_1_alg».proof.Proof.Final
import Idealize.ShloMosaic.Adequacy
import Idealize.ShloMosaic.Init

noncomputable section

namespace Cert.Proof.Claims

open Idealize.ShloMosaic Idealize.ShloMosaic.TcCoe Idealize.SL.Sem

/-- The word-level kernel terminates without a fault and leaves its arguments unchanged. -/
theorem frame_k : Cert.frame_Kernel := fun m ρ _ => Cert.Kernel.Gen.frame m ρ
/-- So does the idealized kernel. -/
theorem frame_ki : Cert.frame_KernelIdeal := fun m ρ _ => Cert.KernelIdeal.Gen.frame m ρ
/-- The reference is a straight line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the same result array: the kernel's is the whole-array function `G` of the
    arrays its region finds (`Blocks.run`), which is the reference's last stage of the kernel's arguments
    (`Final.Gm_eq`); the reference's is that stage of its own arguments (its generated run), and the arguments agree. -/
theorem algebraic : Cert.algebraic_KernelIdeal_ReferenceIdeal := by
  intro m ρ m' ρ' _ hagree
  refine ⟨fun c => Cert.FmDnn.Blocks.Gm m c, Cert.FmDnn.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  rw [Cert.ReferenceIdeal.Read.val_main_v68_eq, h0, h1, h2, h3, h4, h5, h6, h7, h8, h9, h10, h11, h12]
  exact (Cert.FmDnn.Final.Gm_eq m c).symm

end Cert.Proof.Claims

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
